-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x256 : Shape := ⟨2, ![128, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part2 {F : FTy → Type} [FloatOps F] (main_arg9 : FVec F S128x128 .f32) (main_arg10 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S128 .f32) (main_arg7 : FVec F S128x256 .f32) (main_arg8 : FVec F S128 .f32) (main_arg9 : FVec F S128x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg7
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S600000 32) (main_arg2 : IVec S600000 32) (main_arg3 : FVec F S50000x128 .f32) (main_arg4 : FVec F S600000 .f32) (main_arg5 : FVec F S128x128 .f32) (main_arg6 : FVec F S128 .f32) (main_arg7 : FVec F S128x256 .f32) (main_arg8 : FVec F S128 .f32) (main_arg9 : FVec F S128x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg3
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S600000 .f32 := Host.absf main_arg4
  let main_cst_2 : FVec F S_ .f32 := constant S_ .f32 0x7F800000#32
  let main_v10 : FVec F S600000 .f32 := broadcastInDim S600000 ![] bcast_S_S600000 main_cst_2
  let main_v11 : IVec S600000 1 := cmpf .olt main_v9 main_v10
  let main_c_3 : IVec S_ 1 := constantI S_ 1 1#1
  let main_v12 : IVec S_ 1 := (fun x v => Host.reduce IntOp.andi x v reducesTo_S600000_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x256 : Shape := ⟨2, ![128, 256]⟩
abbrev S600000x1 : Shape := ⟨2, ![600000, 1]⟩
abbrev S1x128 : Shape := ⟨2, ![1, 128]⟩
abbrev S5000x128 : Shape := ⟨2, ![5000, 128]⟩
abbrev S_ : Shape := ⟨0, ![]⟩
abbrev S600000x128 : Shape := ⟨2, ![600000, 128]⟩
abbrev S10000x128 : Shape := ⟨2, ![10000, 128]⟩
abbrev S2000x128 : Shape := ⟨2, ![2000, 128]⟩

abbrev nBuf : Space → Nat
  | .hbm => 70
  | .vmem => 23
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S50000x128, .f32⟩
  | .hbm, ⟨4, _⟩ => ⟨S600000, .f32⟩
  | .hbm, ⟨5, _⟩ => ⟨S128x128, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S600000x1, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S1x128, .f32⟩
  | .hbm, ⟨19, _⟩ => ⟨S50000x128, .f32⟩
  | .hbm, ⟨20, _⟩ => ⟨S50000x128, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S600000x128, .f32⟩
  | .hbm, ⟨31, _⟩ => ⟨S600000x128, .f32⟩
  | .hbm, ⟨32, _⟩ => ⟨S_, .f32⟩
  | .hbm, ⟨33, _⟩ => ⟨S10000x128, .f32⟩
  | .hbm, ⟨34, _⟩ => ⟨S600000x1, .i32⟩
  | .hbm, ⟨35, _⟩ => ⟨S10000x128, .f32⟩
  | .hbm, ⟨36, _⟩ => ⟨S_, .f32⟩
  | .hbm, ⟨37, _⟩ => ⟨S128, .f32⟩
  | .hbm, ⟨38, _⟩ => ⟨S1x128, .f32⟩
  | .hbm, ⟨39, _⟩ => ⟨S10000x128, .f32⟩
  | .hbm, ⟨40, _⟩ => ⟨S_, .i32⟩
  | .hbm, ⟨41, _⟩ => ⟨S600000, .i32⟩
  | .hbm, ⟨42, _⟩ => ⟨S600000, .i1⟩
  | .hbm, ⟨43, _⟩ => ⟨S_, .i32⟩
  | .hbm, ⟨44, _⟩ => ⟨S600000, .i32⟩
  | .hbm, ⟨45, _⟩ => ⟨S600000, .i32⟩
  | .hbm, ⟨46, _⟩ => ⟨S600000, .i32⟩
  | .hbm, ⟨47, _⟩ => ⟨S600000x1, .i32⟩
  | .hbm, ⟨48, _⟩ => ⟨S600000x128, .f32⟩
  | .hbm, ⟨49, _⟩ => ⟨S_, .i32⟩
  | .hbm, ⟨50, _⟩ => ⟨S600000, .i32⟩
  | .hbm, ⟨51, _⟩ => ⟨S600000, .i1⟩
  | .hbm, ⟨52, _⟩ => ⟨S_, .i32⟩
  | .hbm, ⟨53, _⟩ => ⟨S600000, .i32⟩
  | .hbm, ⟨54, _⟩ => ⟨S600000, .i32⟩
  | .hbm, ⟨55, _⟩ => ⟨S600000, .i32⟩
  | .hbm, ⟨56, _⟩ => ⟨S600000x1, .i32⟩
  | .hbm, ⟨57, _⟩ => ⟨S600000x128, .f32⟩
  | .hbm, ⟨58, _⟩ => ⟨S600000x128, .f32⟩
  | .hbm, ⟨59, _⟩ => ⟨S1x128, .f32⟩
  | .hbm, ⟨60, _⟩ => ⟨S600000x128, .f32⟩
  | .hbm, ⟨61, _⟩ => ⟨S600000x128, .f32⟩
  | .hbm, ⟨62, _⟩ => ⟨S600000x128, .f32⟩
  | .hbm, ⟨63, _⟩ => ⟨S600000x128, .f32⟩
  | .hbm, ⟨64, _⟩ => ⟨S_, .f32⟩
  | .hbm, ⟨65, _⟩ => ⟨S50000x128, .f32⟩
  | .hbm, ⟨66, _⟩ => ⟨S600000x1, .i32⟩
  | .hbm, ⟨67, _⟩ => ⟨S50000x128, .f32⟩
  | .hbm, ⟨68, _⟩ => ⟨S1x128, .f32⟩
  | .hbm, ⟨69, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S2000x128, .f32⟩
  | .local _ .vmem, ⟨10, _⟩ => ⟨S2000x128, .f32⟩
  | .local _ .vmem, ⟨11, _⟩ => ⟨S128x128, .f32⟩
  | .local _ .vmem, ⟨12, _⟩ => ⟨S1x128, .f32⟩
  | .local _ .vmem, ⟨13, _⟩ => ⟨S2000x128, .f32⟩
  | .local _ .vmem, ⟨14, _⟩ => ⟨S2000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_2 : Ref sig .tc := ⟨.hbm, 40, rfl⟩
abbrev main_v24 : Ref sig .tc := ⟨.hbm, 41, rfl⟩
abbrev main_v25 : Ref sig .tc := ⟨.hbm, 42, rfl⟩
abbrev main_c_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_6 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S600000_S600000x1 : S600000.ShapeCasts S600000x1
  transposes_S128x128_S128x128_1_0 : S128x128.Transposes [1, 0] S128x128
  slices_S128x256_S128x128_0_0 : S128x256.Slices ![0, 0] S128x128
  slices_S128x256_S128x128_0_128 : S128x256.Slices ![0, 128] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S10000x128 : S_.BroadcastsInDim S10000x128 (![] : Fin 0 → Fin S10000x128.rank)
  bcast_S_S128 : S_.BroadcastsInDim S128 (![] : Fin 0 → Fin S128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S50000x128 : S_.BroadcastsInDim S50000x128 (![] : Fin 0 → Fin S50000x128.rank)
  shapeCasts_S5000x128_S5000x128 : S5000x128.ShapeCasts S5000x128
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S10000x128_S600000x1_S600000x128_1_0_0_1_wf : ScatterDims.WF S10000x128 S600000x1 S600000x128 [1] [0] [0] 1
  dot_S2000x128_S128x128_S2000x128_1_0_0_1_n_n_wf : DotDims.WF S2000x128 S128x128 S2000x128 [1] [0] [0] [1] [] []
  gather_S10000x128_S600000x1_S600000x128_1_0_n_n_0_1_1128_wf : GatherDims.WF S10000x128 S600000x1 S600000x128 [1] [0] [] [0] [] 1 ![1, 128]
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S10000x128.size a
  hwx1_0 : ∀ i : grid1.Coords, EltTy.bits .f32 = 32 ∨ (Rect.block (s := S10000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S10000x128.size a
  hwx1_3 : ∀ i : grid1.Coords, EltTy.bits .f32 = 32 ∨ (Rect.block (s := S10000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S10000x128_S600000x1_S600000x128_1_0_0_1 : ScatterDims S10000x128 S600000x1 S600000x128 where
  updateWindowDims := [1]
  insertedWindowDims := [0]
  scatterDimsToOperandDims := [0]
  indexVectorDim := 1
  wf := scatter_S10000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S10000x128_S600000x1_S600000x128_1_0_n_n_0_1_1128 : GatherDims S10000x128 S600000x1 S600000x128 where
  offsetDims := [1]
  collapsedSliceDims := [0]
  operandBatchingDims := []
  startIndicesBatchingDims := []
  startIndexMap := [0]
  indexVectorDim := 1
  sliceSizes := ![1, 128]
  wf := gather_S10000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_1) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x256 : Shape := ⟨2, ![128, 256]⟩
abbrev S600000x1 : Shape := ⟨2, ![600000, 1]⟩
abbrev S1x128 : Shape := ⟨2, ![1, 128]⟩
abbrev S_ : Shape := ⟨0, ![]⟩
abbrev S600000x128 : Shape := ⟨2, ![600000, 128]⟩
abbrev S10000x128 : Shape := ⟨2, ![10000, 128]⟩
abbrev S600000x256 : Shape := ⟨2, ![600000, 256]⟩
abbrev S256x128 : Shape := ⟨2, ![256, 128]⟩

abbrev nBuf : Space → Nat
  | .hbm => 74
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S50000x128, .f32⟩
  | .hbm, ⟨4, _⟩ => ⟨S600000, .f32⟩
  | .hbm, ⟨5, _⟩ => ⟨S128x128, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S600000x1, .f32⟩
  | .hbm, ⟨12, _⟩ => ⟨S128x128, .f32⟩
  | .hbm, ⟨13, _⟩ => ⟨S50000x128, .f32⟩
  | .hbm, ⟨14, _⟩ => ⟨S1x128, .f32⟩
  | .hbm, ⟨15, _⟩ => ⟨S50000x128, .f32⟩
  | .hbm, ⟨16, _⟩ => ⟨S50000x128, .f32⟩
  | .hbm, ⟨17, _⟩ => ⟨S_, .i32⟩
  | .hbm, ⟨18, _⟩ => ⟨S600000, .i32⟩
  | .hbm, ⟨19, _⟩ => ⟨S600000, .i1⟩
  | .hbm, ⟨20, _⟩ => ⟨S_, .i32⟩
  | .hbm, ⟨21, _⟩ => ⟨S600000, .i32⟩
  | .hbm, ⟨22, _⟩ => ⟨S600000, .i32⟩
  | .hbm, ⟨23, _⟩ => ⟨S600000, .i32⟩
  | .hbm, ⟨24, _⟩ => ⟨S600000x1, .i32⟩
  | .hbm, ⟨25, _⟩ => ⟨S600000x128, .f32⟩
  | .hbm, ⟨26, _⟩ => ⟨S600000x128, .f32⟩
  | .hbm, ⟨27, _⟩ => ⟨S600000x128, .f32⟩
  | .hbm, ⟨28, _⟩ => ⟨S_, .f32⟩
  | .hbm, ⟨29, _⟩ => ⟨S10000x128, .f32⟩
  | .hbm, ⟨30, _⟩ => ⟨S600000x1, .i32⟩
  | .hbm, ⟨31, _⟩ => ⟨S10000x128, .f32⟩
  | .hbm, ⟨32, _⟩ => ⟨S_, .i32⟩
  | .hbm, ⟨33, _⟩ => ⟨S600000, .i32⟩
  | .hbm, ⟨34, _⟩ => ⟨S600000, .i1⟩
  | .hbm, ⟨35, _⟩ => ⟨S_, .i32⟩
  | .hbm, ⟨36, _⟩ => ⟨S600000, .i32⟩
  | .hbm, ⟨37, _⟩ => ⟨S600000, .i32⟩
  | .hbm, ⟨38, _⟩ => ⟨S600000, .i32⟩
  | .hbm, ⟨39, _⟩ => ⟨S600000x1, .i32⟩
  | .hbm, ⟨40, _⟩ => ⟨S600000x128, .f32⟩
  | .hbm, ⟨41, _⟩ => ⟨S_, .i32⟩
  | .hbm, ⟨42, _⟩ => ⟨S600000, .i32⟩
  | .hbm, ⟨43, _⟩ => ⟨S600000, .i1⟩
  | .hbm, ⟨44, _⟩ => ⟨S_, .i32⟩
  | .hbm, ⟨45, _⟩ => ⟨S600000, .i32⟩
  | .hbm, ⟨46, _⟩ => ⟨S600000, .i32⟩
  | .hbm, ⟨47, _⟩ => ⟨S600000, .i32⟩
  | .hbm, ⟨48, _⟩ => ⟨S600000x1, .i32⟩
  | .hbm, ⟨49, _⟩ => ⟨S600000x128, .f32⟩
  | .hbm, ⟨50, _⟩ => ⟨S600000x256, .f32⟩
  | .hbm, ⟨51, _⟩ => ⟨S256x128, .f32⟩
  | .hbm, ⟨52, _⟩ => ⟨S600000x128, .f32⟩
  | .hbm, ⟨53, _⟩ => ⟨S1x128, .f32⟩
  | .hbm, ⟨54, _⟩ => ⟨S600000x128, .f32⟩
  | .hbm, ⟨55, _⟩ => ⟨S600000x128, .f32⟩
  | .hbm, ⟨56, _⟩ => ⟨S600000x128, .f32⟩
  | .hbm, ⟨57, _⟩ => ⟨S600000x128, .f32⟩
  | .hbm, ⟨58, _⟩ => ⟨S_, .f32⟩
  | .hbm, ⟨59, _⟩ => ⟨S50000x128, .f32⟩
  | .hbm, ⟨60, _⟩ => ⟨S600000x1, .i32⟩
  | .hbm, ⟨61, _⟩ => ⟨S50000x128, .f32⟩
  | .hbm, ⟨62, _⟩ => ⟨S_, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S128x128, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_1 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_3 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]

class Facts₀ : Prop where
  bcast_S600000_S600000x1_0 : S600000.BroadcastsInDim S600000x1 (![0] : Fin 1 → Fin S600000x1.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S10000x128 : S_.BroadcastsInDim S10000x128 (![] : Fin 0 → Fin S10000x128.rank)
  concatenates_S600000x128_S600000x128_S600000x256_d1 : Shape.Concatenates [S600000x128, S600000x128] S600000x256 1
  transposes_S128x256_S256x128_1_0 : S128x256.Transposes [1, 0] S256x128
  bcast_S1x128_S600000x128_0_1 : S1x128.BroadcastsInDim S600000x128 (![0, 1] : Fin 2 → Fin S600000x128.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S10000x128_S600000x1_S600000x128_1_0_0_1_wf : ScatterDims.WF S10000x128 S600000x1 S600000x128 [1] [0] [0] 1
  gather_S10000x128_S600000x1_S600000x128_1_0_n_n_0_1_1128_wf : GatherDims.WF S10000x128 S600000x1 S600000x128 [1] [0] [] [0] [] 1 ![1, 128]
  dot_S600000x256_S256x128_S600000x128_1_0_0_1_n_n_wf : DotDims.WF S600000x256 S256x128 S600000x128 [1] [0] [0] [1] [] []
  scatter_S50000x128_S600000x1_S600000x128_1_0_0_1_wf : ScatterDims.WF S50000x128 S600000x1 S600000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S10000x128_S600000x1_S600000x128_1_0_0_1 : ScatterDims S10000x128 S600000x1 S600000x128 where
  updateWindowDims := [1]
  insertedWindowDims := [0]
  scatterDimsToOperandDims := [0]
  indexVectorDim := 1
  wf := scatter_S10000x128_S600000x1_S600000x128_1_0_0_1_wf
def gather_S10000x128_S600000x1_S600000x128_1_0_n_n_0_1_1128 : GatherDims S10000x128 S600000x1 S600000x128 where
  offsetDims := [1]
  collapsedSliceDims := [0]
  operandBatchingDims := []
  startIndicesBatchingDims := []
  startIndexMap := [0]
  indexVectorDim := 1
  sliceSizes := ![1, 128]
  wf := gather_S10000x128_S600000x1_S600000x128_1_0_n_n_0_1_1128_wf
def dot_S600000x256_S256x128_S600000x128_1_0_0_1_n_n : DotDims S600000x256 S256x128 S600000x128 where
  lhsContracting := [1]
  rhsContracting := [0]
  lhsNonContracting := [0]
  rhsNonContracting := [1]
  lhsBatch := []
  rhsBatch := []
  wf := dot_S600000x256_S256x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.KernelRun.lean ====
/-
  The idealized kernel program's run with its result named.

  The program is three row-tiled dense layers (regions) among stretches of host operations. Every weakly fair
  execution from a memory with zero counters terminates without a fault, and in its final state every unscoped
  buffer of a core holds the contents the last boundary of the run assigns it: the fold of the host stretches and
  of the regions' write-backs from the launch memory. Read at the program's result buffer this names the result;
  read at the argument buffers it says they are as launched.
-/
import proofs.«107207_j49658411876804_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v48) = W6 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v48 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.RunValue

end
-- ==== Proof.HostChain.lean ====
import proofs.«107207_j49658411876804_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

/-!
  The kernel program's buffer contents at the boundaries between its host stretches and its three dense-layer
  regions, named.

  Between the regions the host gathers rows, scales them by the incidence weights, and adds them up per hyperedge
  or per vertex; before the first region it only re-lays the weights (transposes, the two halves of the second
  layer's weight, biases as rows). Each boundary's contents are a fold over the launch memory; here each buffer a
  later step reads is written out as the host operations' composite function of the buffers the stretch found, and
  followed back to the launch memory where nothing in between writes it.
-/
namespace Cert.KernelIdeal.HostChain

open Cert.KernelIdeal Cert.KernelIdeal.Gen
open Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ) (ρ : Dev nD → PrngReg)

/-- A stretch of host operations that does not write a buffer leaves it as it found it. -/
macro "not_written" ops:ident : tactic => `(tactic| (
  refine StableHlo.after_of_forall_not_mem _ _ (List.forall_iff_forall_mem.mp ?_)
  simp only [$ops:ident, List.Forall, StableHlo.nullary_writes, StableHlo.unary_writes, StableHlo.binary_writes, StableHlo.ternary_writes, StableHlo.quaternary_writes, StableHlo.reshape_writes, Finset.mem_singleton]
  repeat' apply And.intro
  all_goals exact StableHlo.devRef_ne_of_ne (by decide)))

/-! ## The host stretches as functions -/

/-- The row numbers a gather is given: a negative one counted from the end (`n` added), the others as they are, as a column. -/
def rowNumbers (n : BitVec 32) (x : (⟨S600000, .i32⟩ : BufTy).Contents (Elt F)) : (⟨S600000x1, .i32⟩ : BufTy).Contents (Elt F) :=
  broadcastInDim S600000x1 ![0] Facts₀.bcast_S600000_S600000x1_0
    (select (cmpi .slt x (broadcastInDim S600000 ![] Facts₀.bcast_S_S600000 (constantI S_ 32 0#32)))
      (addi x (broadcastInDim S600000 ![] Facts₀.bcast_S_S600000 (constantI S_ 32 n))) x)

/-- The incidence weights, one per pair, repeated along each pair's 128 features. -/
def weightRows (a0 : (⟨S600000x1, .f32⟩ : BufTy).Contents (Elt F)) : (⟨S600000x128, .f32⟩ : BufTy).Contents (Elt F) :=
  broadcastInDim S600000x128 ![0, 1] Facts₀.bcast_S600000x1_S600000x128_0_1 a0

/-- Vertex to hyperedge: each pair's vertex row of the first layer's output, weighted, summed per hyperedge. -/
def edgeSums (xw1 : (⟨S50000x128, .f32⟩ : BufTy).Contents (Elt F)) (x1 x2 : (⟨S600000, .i32⟩ : BufTy).Contents (Elt F)) (a0 : (⟨S600000x1, .f32⟩ : BufTy).Contents (Elt F)) :
    (⟨S10000x128, .f32⟩ : BufTy).Contents (Elt F) :=
  Host.scatterAdd scatter_S10000x128_S600000x1_S600000x128_1_0_0_1
    (broadcastInDim S10000x128 ![] Facts₀.bcast_S_S10000x128 (constant S_ .f32 0x00000000#32))
    (broadcastInDim S600000x1 ![0] Facts₀.bcast_S600000_S600000x1_0 x2)
    (mulf (Host.gather gather_S50000x128_S600000x1_S600000x128_1_0_n_n_0_1_1128 xw1 (rowNumbers 50000#32 x1)) (weightRows a0))

/-- A bias of zeros as a row. -/
def zeroRow : (⟨S1x128, .f32⟩ : BufTy).Contents (Elt F) :=
  shapeCast S1x128 (broadcastInDim S128 ![] Facts₀.bcast_S_S128 (constant S_ .f32 0x00000000#32)) Facts₀.shapeCasts_S128_S1x128

/-- Hyperedge to vertex: each pair's vertex row of `xa` plus its hyperedge row of `eb` plus the bias, weighted, summed
    per vertex. -/
def vertexSums (xa : (⟨S50000x128, .f32⟩ : BufTy).Contents (Elt F)) (eb : (⟨S10000x128, .f32⟩ : BufTy).Contents (Elt F)) (x1 x2 : (⟨S600000, .i32⟩ : BufTy).Contents (Elt F))
    (x8 : (⟨S128, .f32⟩ : BufTy).Contents (Elt F)) (a0 : (⟨S600000x1, .f32⟩ : BufTy).Contents (Elt F)) : (⟨S50000x128, .f32⟩ : BufTy).Contents (Elt F) :=
  Host.scatterAdd scatter_S50000x128_S600000x1_S600000x128_1_0_0_1
    (broadcastInDim S50000x128 ![] Facts₀.bcast_S_S50000x128 (constant S_ .f32 0x00000000#32))
    (broadcastInDim S600000x1 ![0] Facts₀.bcast_S600000_S600000x1_0 x1)
    (mulf (addf (addf (Host.gather gather_S50000x128_S600000x1_S600000x128_1_0_n_n_0_1_1128 xa (rowNumbers 50000#32 x1))
                      (Host.gather gather_S10000x128_S600000x1_S600000x128_1_0_n_n_0_1_1128 eb (rowNumbers 10000#32 x2)))
                (broadcastInDim S600000x128 ![0, 1] Facts₀.bcast_S1x128_S600000x128_0_1 (broadcastInDim S1x128 ![1] Facts₀.bcast_S128_S1x128_1 x8)))
          (weightRows a0))

/-! ## Before the first region -/

theorem W1_arg0 (c : Dev nD) : W1 m ρ c (Proc.devRef .tc main_arg0) = m ((c : Thread nD τ).loc main_arg0) := by
  show StableHlo.after hostOps0 (W0 m ρ c) (Proc.devRef .tc main_arg0) = _
  not_written hostOps0
theorem W1_arg1 (c : Dev nD) : W1 m ρ c (Proc.devRef .tc main_arg1) = m ((c : Thread nD τ).loc main_arg1) := by
  show StableHlo.after hostOps0 (W0 m ρ c) (Proc.devRef .tc main_arg1) = _
  not_written hostOps0
theorem W1_arg2 (c : Dev nD) : W1 m ρ c (Proc.devRef .tc main_arg2) = m ((c : Thread nD τ).loc main_arg2) := by
  show StableHlo.after hostOps0 (W0 m ρ c) (Proc.devRef .tc main_arg2) = _
  not_written hostOps0
theorem W1_arg3 (c : Dev nD) : W1 m ρ c (Proc.devRef .tc main_arg3) = m ((c : Thread nD τ).loc main_arg3) := by
  show StableHlo.after hostOps0 (W0 m ρ c) (Proc.devRef .tc main_arg3) = _
  not_written hostOps0
theorem W1_arg8 (c : Dev nD) : W1 m ρ c (Proc.devRef .tc main_arg8) = m ((c : Thread nD τ).loc main_arg8) := by
  show StableHlo.after hostOps0 (W0 m ρ c) (Proc.devRef .tc main_arg8) = _
  not_written hostOps0
theorem W1_arg10 (c : Dev nD) : W1 m ρ c (Proc.devRef .tc main_arg10) = m ((c : Thread nD τ).loc main_arg10) := by
  show StableHlo.after hostOps0 (W0 m ρ c) (Proc.devRef .tc main_arg10) = _
  not_written hostOps0

theorem W1_v0 (c : Dev nD) : W1 m ρ c (Proc.devRef .tc main_v0)
    = shapeCast S600000x1 (m ((c : Thread nD τ).loc main_arg4)) Facts₀.shapeCasts_S600000_S600000x1 := by
  show StableHlo.after hostOps0 (W0 m ρ c) (Proc.devRef .tc main_v0) = _
  after_results
  rfl
theorem W1_v1 (c : Dev nD) : W1 m ρ c (Proc.devRef .tc main_v1)
    = transpose S128x128 [1, 0] (m ((c : Thread nD τ).loc main_arg5)) Facts₀.transposes_S128x128_S128x128_1_0 := by
  show StableHlo.after hostOps0 (W0 m ρ c) (Proc.devRef .tc main_v1) = _
  after_results
theorem W1_v3 (c : Dev nD) : W1 m ρ c (Proc.devRef .tc main_v3)
    = transpose S128x128 [1, 0] (extractStridedSlice S128x128 ![0, 0] (m ((c : Thread nD τ).loc main_arg7)) Facts₀.slices_S128x256_S128x128_0_0)
        Facts₀.transposes_S128x128_S128x128_1_0 := by
  show StableHlo.after hostOps0 (W0 m ρ c) (Proc.devRef .tc main_v3) = _
  after_results
theorem W1_v5 (c : Dev nD) : W1 m ρ c (Proc.devRef .tc main_v5)
    = transpose S128x128 [1, 0] (extractStridedSlice S128x128 ![0, 128] (m ((c : Thread nD τ).loc main_arg7)) Facts₀.slices_S128x256_S128x128_0_128)
        Facts₀.transposes_S128x128_S128x128_1_0 := by
  show StableHlo.after hostOps0 (W0 m ρ c) (Proc.devRef .tc main_v5) = _
  after_results
theorem W1_v6 (c : Dev nD) : W1 m ρ c (Proc.devRef .tc main_v6)
    = transpose S128x128 [1, 0] (m ((c : Thread nD τ).loc main_arg9)) Facts₀.transposes_S128x128_S128x128_1_0 := by
  show StableHlo.after hostOps0 (W0 m ρ c) (Proc.devRef .tc main_v6) = _
  after_results
theorem W1_v7 (c : Dev nD) : W1 m ρ c (Proc.devRef .tc main_v7)
    = shapeCast S1x128 (m ((c : Thread nD τ).loc main_arg6)) Facts₀.shapeCasts_S128_S1x128 := by
  show StableHlo.after hostOps0 (W0 m ρ c) (Proc.devRef .tc main_v7) = _
  after_results
  rfl

/-! ## After the first region -/

theorem W2_out4 (c : Dev nD) : W2 m ρ c (Proc.devRef .tc main_v8_0) = (dat0 (V1 m ρ) c).arrAt 4 cfg0.N := W2_arr m ρ c 4
theorem W2_out5 (c : Dev nD) : W2 m ρ c (Proc.devRef .tc main_v8_1) = (dat0 (V1 m ρ) c).arrAt 5 cfg0.N := W2_arr m ρ c 5
theorem W2_keep (c : Dev nD) (b : Ref sig .tc) (hb : ∀ w, Pipeline.arrRef spec0 w ≠ b) :
    W2 m ρ c (Proc.devRef .tc b) = W1 m ρ c (Proc.devRef .tc b) := W2_of_ne m ρ c b hb

/-! ## Before the second region -/

theorem W3_v20 (c : Dev nD) : W3 m ρ c (Proc.devRef .tc main_v20)
    = edgeSums (W2 m ρ c (Proc.devRef .tc main_v8_0)) (W2 m ρ c (Proc.devRef .tc main_arg1)) (W2 m ρ c (Proc.devRef .tc main_arg2))
        (W2 m ρ c (Proc.devRef .tc main_v0)) := by
  show StableHlo.after hostOps1 (W2 m ρ c) (Proc.devRef .tc main_v20) = _
  after_results
  rfl
theorem W3_v22 (c : Dev nD) : W3 m ρ c (Proc.devRef .tc main_v22) = zeroRow := by
  show StableHlo.after hostOps1 (W2 m ρ c) (Proc.devRef .tc main_v22) = _
  after_results
  rfl
theorem W3_keep_v5 (c : Dev nD) : W3 m ρ c (Proc.devRef .tc main_v5) = W2 m ρ c (Proc.devRef .tc main_v5) := by
  show StableHlo.after hostOps1 (W2 m ρ c) (Proc.devRef .tc main_v5) = _
  not_written hostOps1

/-! ## After the second region -/

theorem W4_out3 (c : Dev nD) : W4 m ρ c (Proc.devRef .tc main_v23) = (dat1 (V3 m ρ) c).arrAt 3 cfg1.N := W4_arr m ρ c 3
theorem W4_keep (c : Dev nD) (b : Ref sig .tc) (hb : ∀ w, Pipeline.arrRef spec1 w ≠ b) :
    W4 m ρ c (Proc.devRef .tc b) = W3 m ρ c (Proc.devRef .tc b) := W4_of_ne m ρ c b hb

/-! ## Before the third region -/

theorem W5_v46 (c : Dev nD) : W5 m ρ c (Proc.devRef .tc main_v46)
    = vertexSums (W4 m ρ c (Proc.devRef .tc main_v8_1)) (W4 m ρ c (Proc.devRef .tc main_v23)) (W4 m ρ c (Proc.devRef .tc main_arg1))
        (W4 m ρ c (Proc.devRef .tc main_arg2)) (W4 m ρ c (Proc.devRef .tc main_arg8)) (W4 m ρ c (Proc.devRef .tc main_v0)) := by
  show StableHlo.after hostOps2 (W4 m ρ c) (Proc.devRef .tc main_v46) = _
  after_results_simp
  rfl
theorem W5_v47 (c : Dev nD) : W5 m ρ c (Proc.devRef .tc main_v47)
    = shapeCast S1x128 (W4 m ρ c (Proc.devRef .tc main_arg10)) Facts₀.shapeCasts_S128_S1x128 := by
  show StableHlo.after hostOps2 (W4 m ρ c) (Proc.devRef .tc main_v47) = _
  after_results_simp
  rfl
theorem W5_keep_v6 (c : Dev nD) : W5 m ρ c (Proc.devRef .tc main_v6) = W4 m ρ c (Proc.devRef .tc main_v6) := by
  show StableHlo.after hostOps2 (W4 m ρ c) (Proc.devRef .tc main_v6) = _
  not_written hostOps2
theorem W5_keep_arg3 (c : Dev nD) : W5 m ρ c (Proc.devRef .tc main_arg3) = W4 m ρ c (Proc.devRef .tc main_arg3) := by
  show StableHlo.after hostOps2 (W4 m ρ c) (Proc.devRef .tc main_arg3) = _
  not_written hostOps2

/-! ## After the third region -/

theorem W6_out4 (c : Dev nD) : W6 m ρ c (Proc.devRef .tc main_v48) = (dat2 (V5 m ρ) c).arrAt 4 cfg2.N := W6_arr m ρ c 4

/-! ## Buffers followed back through the boundaries nothing writes them across -/

theorem W2_arg1 (c : Dev nD) : W2 m ρ c (Proc.devRef .tc main_arg1) = m ((c : Thread nD τ).loc main_arg1) :=
  (W2_keep m ρ c main_arg1 (by decide)).trans (W1_arg1 m ρ c)
theorem W2_arg2 (c : Dev nD) : W2 m ρ c (Proc.devRef .tc main_arg2) = m ((c : Thread nD τ).loc main_arg2) :=
  (W2_keep m ρ c main_arg2 (by decide)).trans (W1_arg2 m ρ c)
theorem W2_v0 (c : Dev nD) : W2 m ρ c (Proc.devRef .tc main_v0)
    = shapeCast S600000x1 (m ((c : Thread nD τ).loc main_arg4)) Facts₀.shapeCasts_S600000_S600000x1 :=
  (W2_keep m ρ c main_v0 (by decide)).trans (W1_v0 m ρ c)
theorem W3_v5 (c : Dev nD) : W3 m ρ c (Proc.devRef .tc main_v5)
    = transpose S128x128 [1, 0] (extractStridedSlice S128x128 ![0, 128] (m ((c : Thread nD τ).loc main_arg7)) Facts₀.slices_S128x256_S128x128_0_128)
        Facts₀.transposes_S128x128_S128x128_1_0 :=
  (W3_keep_v5 m ρ c).trans ((W2_keep m ρ c main_v5 (by decide)).trans (W1_v5 m ρ c))

theorem W4_out5 (c : Dev nD) : W4 m ρ c (Proc.devRef .tc main_v8_1) = (dat0 (V1 m ρ) c).arrAt 5 cfg0.N := by
  refine (W4_keep m ρ c main_v8_1 (by decide)).trans (Eq.trans ?_ (W2_out5 m ρ c))
  show StableHlo.after hostOps1 (W2 m ρ c) (Proc.devRef .tc main_v8_1) = _
  not_written hostOps1
theorem W4_arg1 (c : Dev nD) : W4 m ρ c (Proc.devRef .tc main_arg1) = m ((c : Thread nD τ).loc main_arg1) := by
  refine (W4_keep m ρ c main_arg1 (by decide)).trans (Eq.trans ?_ (W2_arg1 m ρ c))
  show StableHlo.after hostOps1 (W2 m ρ c) (Proc.devRef .tc main_arg1) = _
  not_written hostOps1
theorem W4_arg2 (c : Dev nD) : W4 m ρ c (Proc.devRef .tc main_arg2) = m ((c : Thread nD τ).loc main_arg2) := by
  refine (W4_keep m ρ c main_arg2 (by decide)).trans (Eq.trans ?_ (W2_arg2 m ρ c))
  show StableHlo.after hostOps1 (W2 m ρ c) (Proc.devRef .tc main_arg2) = _
  not_written hostOps1
theorem W4_arg8 (c : Dev nD) : W4 m ρ c (Proc.devRef .tc main_arg8) = m ((c : Thread nD τ).loc main_arg8) := by
  refine (W4_keep m ρ c main_arg8 (by decide)).trans (Eq.trans ?_ ((W2_keep m ρ c main_arg8 (by decide)).trans (W1_arg8 m ρ c)))
  show StableHlo.after hostOps1 (W2 m ρ c) (Proc.devRef .tc main_arg8) = _
  not_written hostOps1
theorem W4_arg10 (c : Dev nD) : W4 m ρ c (Proc.devRef .tc main_arg10) = m ((c : Thread nD τ).loc main_arg10) := by
  refine (W4_keep m ρ c main_arg10 (by decide)).trans (Eq.trans ?_ ((W2_keep m ρ c main_arg10 (by decide)).trans (W1_arg10 m ρ c)))
  show StableHlo.after hostOps1 (W2 m ρ c) (Proc.devRef .tc main_arg10) = _
  not_written hostOps1
theorem W4_arg3 (c : Dev nD) : W4 m ρ c (Proc.devRef .tc main_arg3) = m ((c : Thread nD τ).loc main_arg3) := by
  refine (W4_keep m ρ c main_arg3 (by decide)).trans (Eq.trans ?_ ((W2_keep m ρ c main_arg3 (by decide)).trans (W1_arg3 m ρ c)))
  show StableHlo.after hostOps1 (W2 m ρ c) (Proc.devRef .tc main_arg3) = _
  not_written hostOps1
theorem W4_v0 (c : Dev nD) : W4 m ρ c (Proc.devRef .tc main_v0)
    = shapeCast S600000x1 (m ((c : Thread nD τ).loc main_arg4)) Facts₀.shapeCasts_S600000_S600000x1 := by
  refine (W4_keep m ρ c main_v0 (by decide)).trans (Eq.trans ?_ (W2_v0 m ρ c))
  show StableHlo.after hostOps1 (W2 m ρ c) (Proc.devRef .tc main_v0) = _
  not_written hostOps1
theorem W4_v6 (c : Dev nD) : W4 m ρ c (Proc.devRef .tc main_v6)
    = transpose S128x128 [1, 0] (m ((c : Thread nD τ).loc main_arg9)) Facts₀.transposes_S128x128_S128x128_1_0 := by
  refine (W4_keep m ρ c main_v6 (by decide)).trans (Eq.trans ?_ ((W2_keep m ρ c main_v6 (by decide)).trans (W1_v6 m ρ c)))
  show StableHlo.after hostOps1 (W2 m ρ c) (Proc.devRef .tc main_v6) = _
  not_written hostOps1

end Cert.KernelIdeal.HostChain
end
-- ==== Proof.LibColumn.lean ====
/-
  Column vectors read at an index given by coordinates.

  A column is a matrix with ONE column, shape `[a, 1]`. Three layout operations on columns, each read at an index
  written `ix2 …`: a vector `[a]` cast to a column reads, at `(i, u)`, the vector at `i`; a column cast to a row `[1, a]`
  reads, at `(u, i)`, the column at `(i, 0)` (the same row-major position); a column broadcast to a matrix `[a, b]` reads,
  at `(p, c)`, the column at `(p, 0)`, whatever `c`. They are the column counterparts of the row forms (a vector cast to a
  row, a row broadcast over many rows).
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[1, a]` reads, at `(u, i)`, the operand at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Layouts.lean ====
/-
  The kernel program's re-laid weights and biases read at an entry, and its first and last dense layers against the
  reference's.

  The kernel hands each dense layer its weight already transposed (entry (k, q) of the transposed matrix is entry
  (q, k) of the weight; for the second layer the two halves of the 128x256 weight, columns 0..127 and 128..255), each
  bias as a 1x128 row, and the incidence weights as a 600000x1 column; the reference transposes inside its products and
  broadcasts its biases and weights. Entry by entry these are the same numbers. The first layer is then, on both sides,
  (p, q) ↦ ∑ₖ X(p, k)·W1(q, k) + b1(q), and the last one (p, q) ↦ ∑ₖ (½·Xv(p, k) + ½·X0(p, k))·W(q, k) + b(q), the
  kernel's mix written with its two halves in the other order (addition of extended reals commutes).
-/
import proofs.«107207_j49658411876804_2_alg».proof.Proof.HostChain
import proofs.«107207_j49658411876804_2_alg».proof.Proof.Gen.ReferenceIdeal.Read
import proofs.«107207_j49658411876804_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.ValueIdx
open Cert.ReferenceIdeal.Read

/-- Arrays of extended reals and of 32-bit integers over the programs' shapes. -/
abbrev A50 := (⟨Cert.ReferenceIdeal.S50000x128, .f32⟩ : BufTy).Contents (Elt Ideal)
abbrev A10 := (⟨Cert.ReferenceIdeal.S10000x128, .f32⟩ : BufTy).Contents (Elt Ideal)
abbrev A600 := (⟨Cert.ReferenceIdeal.S600000x128, .f32⟩ : BufTy).Contents (Elt Ideal)
abbrev M128 := (⟨Cert.ReferenceIdeal.S128x128, .f32⟩ : BufTy).Contents (Elt Ideal)
abbrev M256 := (⟨Cert.ReferenceIdeal.S128x256, .f32⟩ : BufTy).Contents (Elt Ideal)
abbrev V128 := (⟨Cert.ReferenceIdeal.S128, .f32⟩ : BufTy).Contents (Elt Ideal)
abbrev R128 := (⟨Cert.ReferenceIdeal.S1x128, .f32⟩ : BufTy).Contents (Elt Ideal)
abbrev V600 := (⟨Cert.ReferenceIdeal.S600000, .f32⟩ : BufTy).Contents (Elt Ideal)
abbrev C600 := (⟨Cert.ReferenceIdeal.S600000x1, .f32⟩ : BufTy).Contents (Elt Ideal)
abbrev I600 := (⟨Cert.ReferenceIdeal.S600000, .i32⟩ : BufTy).Contents (Elt Ideal)

/-! ## The kernel's re-laid operands at an entry -/

/-- A transposed 128x128 weight at (k, q) is the weight at (q, k). -/
theorem transposed_apply (x : M128) (k q : Fin 128) :
    transpose Cert.KernelIdeal.S128x128 [1, 0] x Cert.KernelIdeal.Facts₀.transposes_S128x128_S128x128_1_0 (ix2 k q) = x (ix2 q k) :=
  transpose_ix2_apply x _ k q

/-- The transposed first half of the 128x256 weight at (k, q) is the weight at (q, k). -/
theorem firstHalfT_apply (x7 : M256) (k q : Fin 128) :
    transpose Cert.KernelIdeal.S128x128 [1, 0]
        (extractStridedSlice Cert.KernelIdeal.S128x128 ![0, 0] x7 Cert.KernelIdeal.Facts₀.slices_S128x256_S128x128_0_0)
        Cert.KernelIdeal.Facts₀.transposes_S128x128_S128x128_1_0 (ix2 k q)
      = x7 (ix2 q (Fin.castAdd 128 k)) :=
  (transpose_ix2_apply _ _ k q).trans
    (slice2_axis1_apply 0 x7 Cert.KernelIdeal.Facts₀.slices_S128x256_S128x128_0_0 q k (Fin.castAdd 128 k) (Nat.zero_add _).symm)

/-- The transposed second half of the 128x256 weight at (k, q) is the weight at (q, 128 + k). -/
theorem secondHalfT_apply (x7 : M256) (k q : Fin 128) :
    transpose Cert.KernelIdeal.S128x128 [1, 0]
        (extractStridedSlice Cert.KernelIdeal.S128x128 ![0, 128] x7 Cert.KernelIdeal.Facts₀.slices_S128x256_S128x128_0_128)
        Cert.KernelIdeal.Facts₀.transposes_S128x128_S128x128_1_0 (ix2 k q)
      = x7 (ix2 q (Fin.natAdd 128 k)) :=
  (transpose_ix2_apply _ _ k q).trans
    (slice2_axis1_apply 128 x7 Cert.KernelIdeal.Facts₀.slices_S128x256_S128x128_0_128 q k (Fin.natAdd 128 k) rfl)

/-- A bias as a row, at (0, q), is the bias at q. -/
theorem biasRow_apply (x : V128) (q : Fin 128) :
    shapeCast Cert.KernelIdeal.S1x128 x Cert.KernelIdeal.Facts₀.shapeCasts_S128_S1x128 (ix2 (0 : Fin 1) q) = x (ix1 q) :=
  shapeCast_a_1a_apply x _ 0 q

/-- The row of zeros is zero at every entry. -/
theorem zeroRow_apply (q : Fin 128) : Cert.KernelIdeal.HostChain.zeroRow (F := Ideal) (ix2 (0 : Fin 1) q) = 0 := by
  unfold Cert.KernelIdeal.HostChain.zeroRow
  refine (shapeCast_a_1a_apply _ _ 0 q).trans ?_
  refine (broadcastInDim_apply _ Cert.KernelIdeal.Facts₀.bcast_S_S128 _ (ix1 q) ix0 (fun a => a.elim0)).trans ?_
  exact Ideal.ofBits_zero_f32

/-- The incidence weights as a column: the kernel's cast of the vector is the reference's broadcast of it. -/
theorem weightColumn_eq (x4 : V600) :
    (shapeCast Cert.KernelIdeal.S600000x1 x4 Cert.KernelIdeal.Facts₀.shapeCasts_S600000_S600000x1 : C600) = val_main_v0 (F := Ideal) x4 := by
  funext j
  obtain ⟨i, u, rfl⟩ : ∃ (i : Fin 600000) (u : Fin 1), j = ix2 i u := ⟨j 0, j 1, eq_ix2 j⟩
  rw [val_main_v0_apply]
  refine (Cert.LibColumn.shapeCast_a_a1_apply x4 _ i u).trans (congrArg x4 ?_)
  funext a; match a with | ⟨0, _⟩ => rfl

/-- … and so are the weights repeated along the 128 features. -/
theorem weightRows_eq (x4 : V600) :
    Cert.KernelIdeal.HostChain.weightRows (F := Ideal)
        (shapeCast Cert.KernelIdeal.S600000x1 x4 Cert.KernelIdeal.Facts₀.shapeCasts_S600000_S600000x1)
      = val_main_v13 (F := Ideal) x4 := by
  unfold Cert.KernelIdeal.HostChain.weightRows
  rw [weightColumn_eq]
  rfl

/-! ## The first layer -/

/-- An array whose entries are the kernel's first dense layer is the reference's first layer. -/
theorem firstLayer_eq (x0 : A50) (x5 : M128) (x6 : V128) (Y : A50)
    (hY : ∀ (p : Fin 50000) (q : Fin 128), Y (ix2 p q)
      = (∑ k : Fin 128, x0 (ix2 p k)
            * (transpose Cert.KernelIdeal.S128x128 [1, 0] x5 Cert.KernelIdeal.Facts₀.transposes_S128x128_S128x128_1_0 : M128) (ix2 k q))
        + (shapeCast Cert.KernelIdeal.S1x128 x6 Cert.KernelIdeal.Facts₀.shapeCasts_S128_S1x128 : R128) (ix2 (0 : Fin 1) q)) :
    Y = val_main_v5 (F := Ideal) x0 x5 x6 := by
  funext j
  obtain ⟨p, q, rfl⟩ : ∃ (p : Fin 50000) (q : Fin 128), j = ix2 p q := ⟨j 0, j 1, eq_ix2 j⟩
  rw [hY p q, val_main_v5_apply, val_main_v2_apply, val_main_v4_apply, val_main_v3_apply]
  refine congrArg₂ (· + ·) (Finset.sum_congr rfl fun k _ => ?_) ?_
  · rw [transposed_apply, val_main_v1_apply]
    refine congrArg₂ (· * ·) (congrArg x0 ?_) (congrArg x5 ?_)
    · funext a; match a with | ⟨0, _⟩ => rfl | ⟨1, _⟩ => rfl
    · funext a; match a with | ⟨0, _⟩ => rfl | ⟨1, _⟩ => rfl
  · rw [biasRow_apply]
    refine congrArg x6 ?_
    funext a; match a with | ⟨0, _⟩ => rfl

/-! ## Vertex to hyperedge -/

/-- The per-hyperedge sums the kernel's host code forms from the first layer's output are the reference's: the same
    gather, weighting and scatter-add, applied to equal arrays. -/
theorem edgeSums_eq (x0 : A50) (x1 x2 : I600) (x4 : V600) (x5 : M128) (x6 : V128) :
    Cert.KernelIdeal.HostChain.edgeSums (F := Ideal) (val_main_v5 (F := Ideal) x0 x5 x6) x1 x2
        (shapeCast Cert.KernelIdeal.S600000x1 x4 Cert.KernelIdeal.Facts₀.shapeCasts_S600000_S600000x1)
      = val_main_v17 (F := Ideal) x0 x1 x2 x4 x5 x6 := by
  unfold Cert.KernelIdeal.HostChain.edgeSums
  rw [weightRows_eq]
  rfl

/-! ## The last layer -/

/-- An array whose entries are the kernel's last dense layer of `Xv` and the fourth argument is the reference's
    result, when `Xv` is the reference's per-vertex sums: the kernel mixes ½·X0 + ½·Xv, the reference ½·Xv + ½·X0. -/
theorem lastLayer_eq (x0 : A50) (x1 x2 : I600) (x3 : A50) (x4 : V600) (x5 : M128) (x6 : V128) (x7 : M256) (x8 : V128)
    (x9 : M128) (x10 : V128) (Xv Y : A50) (hXv : Xv = val_main_v42 (F := Ideal) x0 x1 x2 x4 x5 x6 x7 x8)
    (hY : ∀ (p : Fin 50000) (q : Fin 128), Y (ix2 p q)
      = (∑ k : Fin 128, (Ideal.ofBits .f32 0x3F000000#32 * x3 (ix2 p k) + Ideal.ofBits .f32 0x3F000000#32 * Xv (ix2 p k))
            * (transpose Cert.KernelIdeal.S128x128 [1, 0] x9 Cert.KernelIdeal.Facts₀.transposes_S128x128_S128x128_1_0 : M128) (ix2 k q))
        + (shapeCast Cert.KernelIdeal.S1x128 x10 Cert.KernelIdeal.Facts₀.shapeCasts_S128_S1x128 : R128) (ix2 (0 : Fin 1) q)) :
    Y = val_main_v52 (F := Ideal) x0 x1 x2 x3 x4 x5 x6 x7 x8 x9 x10 := by
  subst hXv
  funext j
  obtain ⟨p, q, rfl⟩ : ∃ (p : Fin 50000) (q : Fin 128), j = ix2 p q := ⟨j 0, j 1, eq_ix2 j⟩
  rw [hY p q, val_main_v52_apply, val_main_v49_apply, val_main_v51_apply, val_main_v50_apply]
  refine congrArg₂ (· + ·) (Finset.sum_congr rfl fun k _ => ?_) ?_
  · have e1 : lidx_main_v49 (ix2 p q) k = ix2 p k := by
      funext a; match a with | ⟨0, _⟩ => rfl | ⟨1, _⟩ => rfl
    have e2 : idx_main_v48 (ridx_main_v49 (ix2 p q) k) = ix2 q k := by
      funext a; match a with | ⟨0, _⟩ => rfl | ⟨1, _⟩ => rfl
    rw [transposed_apply, val_main_v48_apply, val_main_v47_apply, val_main_v44_apply, val_main_v46_apply, val_main_v43_apply,
      val_main_v45_apply, e1, e2]
    show _ = (Ideal.ofBits .f32 0x3F000000#32 * val_main_v42 (F := Ideal) x0 x1 x2 x4 x5 x6 x7 x8 (ix2 p k)
        + Ideal.ofBits .f32 0x3F000000#32 * x3 (ix2 p k)) * x9 (ix2 q k)
    rw [add_comm]
  · rw [biasRow_apply]
    refine congrArg x10 ?_
    funext a; match a with | ⟨0, _⟩ => rfl

end Cert.Bridge

end
-- ==== Proof.LibGatherRows.lean ====
/-
  Reading rows out of a table, and two matrices side by side.

  A table t has N rows of W entries; a column i of R row numbers picks, for each s, the row i(s) of t (the row number
  read as a signed integer and clamped into 0 … N − 1, as a gather does). The R×W matrix so obtained has, at (s, j),
  the entry (i(s), j) of t. The row picked depends on the row number and on the table's height N only: not on the width
  W and not on what the table holds. So two tables of the same height, read through the same column of row numbers,
  are read at the same rows.

  Two matrices of R rows, W1 and W2 wide, put side by side give an R×(W1+W2) matrix; its entry at (s, k) for k among
  the first W1 columns is the first matrix's entry at (s, k), and its entry at (s, W1 + k) is the second matrix's entry
  at (s, k).
-/
import Idealize.ShloMosaic.PureOps.Ideal.Laws
import Idealize.ShloMosaic.Lib.ValueIdx
import Idealize.ShloMosaic.Lib.StackMember
import Idealize.ShloMosaic.Lib.Pipeline.Value

set_option maxRecDepth 16384

noncomputable section

namespace Cert.LibGatherRows

open Idealize.ShloMosaic Idealize.ShloMosaic.ValueIdx

section Rows
variable {α : Type}

/-- The dimension numbers of a gather of whole rows: the table is N×W, the row numbers are an R×1 column, the result is R×W;
    result axis 1 runs along the table's row, table axis 0 is collapsed and is the one the row number addresses. -/
abbrev rowsDims (N W R : Nat) (wf : GatherDims.WF ⟨2, ![N, W]⟩ ⟨2, ![R, 1]⟩ ⟨2, ![R, W]⟩ [1] [0] [] [0] [] 1 ![1, W]) :
    GatherDims ⟨2, ![N, W]⟩ ⟨2, ![R, 1]⟩ ⟨2, ![R, W]⟩ where
  offsetDims := [1]
  collapsedSliceDims := [0]
  operandBatchingDims := []
  startIndicesBatchingDims := []
  startIndexMap := [0]
  indexVectorDim := 1
  sliceSizes := ![1, W]
  wf := wf

/-- The row of a table of N rows that the row number v picks: v read as a signed integer, clamped into 0 … N − 1. -/
def pickedRow (N : Nat) (hN : 0 < N) {w : Nat} (v : BitVec w) : Fin N := ⟨min v.toInt.toNat (N - 1), by omega⟩

/-- The gather of rows read at (s, j): entry j of the table's row picked by the s-th row number. The picked row does not
    depend on the table's width W. -/
theorem gather_rows_apply {N W R w : Nat} (hN : 0 < N)
    (wf : GatherDims.WF ⟨2, ![N, W]⟩ ⟨2, ![R, 1]⟩ ⟨2, ![R, W]⟩ [1] [0] [] [0] [] 1 ![1, W])
    (x : (⟨2, ![N, W]⟩ : Shape).Idx → α) (idx : IVec ⟨2, ![R, 1]⟩ w) (s : Fin R) (j : Fin W) :
    Host.gather (rowsDims N W R wf) x idx (ix2 s j) = x (ix2 (pickedRow N hN (idx (ix2 s (0 : Fin 1)))) j) := by
  unfold Host.gather
  refine congrArg x ?_
  funext a
  refine Fin.ext ?_
  match a with
  | ⟨0, _⟩ =>
    show (rowsDims N W R wf).start (ix2 s j) idx 0 + (rowsDims N W R wf).batchCoord (ix2 s j) 0 + (rowsDims N W R wf).offCoord (ix2 s j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N W R wf).startIndexMap from List.mem_singleton.mpr rfl)]
    have hsi : (rowsDims N W R wf).siIdx (ix2 s j) ⟨List.idxOf (0 : Fin 2) (rowsDims N W R wf).startIndexMap,
        List.idxOf_lt_length_iff.2 (List.mem_singleton.mpr rfl)⟩ = ix2 s (0 : Fin 1) := by
      funext b; refine Fin.ext ?_
      match b with
      | ⟨0, _⟩ => rfl
      | ⟨1, _⟩ => rfl
    rw [hsi]
    rfl
  | ⟨1, _⟩ =>
    show (rowsDims N W R wf).start (ix2 s j) idx 1 + (rowsDims N W R wf).batchCoord (ix2 s j) 1 + (rowsDims N W R wf).offCoord (ix2 s j) 1 = j.val
    rw [GatherDims.batchCoord_eq_zero _ _ _ List.not_mem_nil]
    have h1 : (rowsDims N W R wf).start (ix2 s j) idx 1 = 0 := by
      unfold GatherDims.start
      rw [dif_neg (show ¬ (1 : Fin 2) ∈ ([0] : List (Fin 2)) from by decide)]
    rw [h1]
    simp only [Nat.add_zero, Nat.zero_add]
    rfl

end Rows

section Pair
variable {α : Type} {R W1 W2 : Nat}

/-- Two matrices of R rows side by side, read in the first one's columns, -/
theorem cat2_apply_fst (hcat : Shape.Concatenates [(⟨2, ![R, W1]⟩ : Shape), ⟨2, ![R, W2]⟩] ⟨2, ![R, W1 + W2]⟩ 1)
    (x1 : (⟨2, ![R, W1]⟩ : Shape).Idx → α) (x2 : (⟨2, ![R, W2]⟩ : Shape).Idx → α) (s : Fin R) (k : Fin W1) :
    concatenate ⟨2, ![R, W1 + W2]⟩ 1 [⟨⟨2, ![R, W1]⟩, x1⟩, ⟨⟨2, ![R, W2]⟩, x2⟩] hcat (ix2 s (Fin.castAdd W2 k)) = x1 (ix2 s k) := by
  refine concatenate_apply_piece (t := ⟨2, ![R, W1 + W2]⟩) (1 : Fin 2) [⟨⟨2, ![R, W1]⟩, x1⟩, ⟨⟨2, ![R, W2]⟩, x2⟩] hcat _ 0 (Nat.succ_pos _) _ x1 rfl rfl 0 rfl (ix2 s k) (fun b hb => ?_) ?_
  · match b with
    | ⟨0, _⟩ => rfl
    | ⟨1, _⟩ => exact absurd rfl hb
  · show 0 + k.val = k.val
    omega

/-- … and in the second one's columns. -/
theorem cat2_apply_snd (hcat : Shape.Concatenates [(⟨2, ![R, W1]⟩ : Shape), ⟨2, ![R, W2]⟩] ⟨2, ![R, W1 + W2]⟩ 1)
    (x1 : (⟨2, ![R, W1]⟩ : Shape).Idx → α) (x2 : (⟨2, ![R, W2]⟩ : Shape).Idx → α) (s : Fin R) (k : Fin W2) :
    concatenate ⟨2, ![R, W1 + W2]⟩ 1 [⟨⟨2, ![R, W1]⟩, x1⟩, ⟨⟨2, ![R, W2]⟩, x2⟩] hcat (ix2 s (Fin.natAdd W1 k)) = x2 (ix2 s k) := by
  refine concatenate_apply_piece (t := ⟨2, ![R, W1 + W2]⟩) (1 : Fin 2) [⟨⟨2, ![R, W1]⟩, x1⟩, ⟨⟨2, ![R, W2]⟩, x2⟩] hcat _ 1 (Nat.succ_lt_succ (Nat.succ_pos _)) _ x2 rfl rfl W1 rfl (ix2 s k) (fun b hb => ?_) ?_
  · match b with
    | ⟨0, _⟩ => rfl
    | ⟨1, _⟩ => exact absurd rfl hb
  · show W1 + k.val = W1 + k.val
    rfl

end Pair

end Cert.LibGatherRows
end
-- ==== Proof.EdgeMessage.lean ====
/-
  Multiplying the gathered rows by the weight is gathering the rows of the products.

  For each of the 600000 incidence pairs s the reference forms the 256-long row made of row v(s) of the 50000×128
  table X followed by row e(s) of the 10000×128 table Xe, and multiplies it by the transpose of the 128×256 weight W:
  the entry (s, q) of the result is the sum over the 256 columns k of that row's k-th entry times W(q, k). A sum over
  256 = 128 + 128 columns is the sum over the first 128 plus the sum over the last 128. In the first 128 columns the row
  is row v(s) of X, so the first part is the entry (v(s), q) of the product XA of X with the first 128 columns of W; in the
  last 128 it is row e(s) of Xe, so the second part is the entry (e(s), q) of the product EB of Xe with the last 128
  columns of W. The row a gather picks depends on the row number and the table's height only, so gathering XA and EB by
  the same row numbers reads the same rows v(s) and e(s). Hence the product equals the gather of XA plus the gather of
  EB. Only the splitting of a finite sum is used, which holds on the extended reals without any condition: entries may
  be infinite.
-/
import proofs.«107207_j49658411876804_2_alg».proof.KernelIdeal
import proofs.«107207_j49658411876804_2_alg».proof.Proof.Gen.ReferenceIdeal.Read
import proofs.«107207_j49658411876804_2_alg».proof.Proof.LibGatherRows
import Idealize.ShloMosaic.Lib.Pipeline.Value
import Idealize.ShloMosaic.Lib.ValueIdx
import Idealize.ShloMosaic.PureOps.Ideal.Laws

set_option maxRecDepth 16384
noncomputable section
namespace Cert.EdgeMessage
open Idealize.ShloMosaic Idealize.ShloMosaic.ValueIdx Cert.LibGatherRows

variable [Cert.KernelIdeal.Facts] [Cert.ReferenceIdeal.Facts]

/-- arrays of extended reals / of 32-bit integers over the reference's shapes -/
abbrev A50 := (⟨Cert.ReferenceIdeal.S50000x128, .f32⟩ : BufTy).Contents (Elt Ideal)
abbrev A10 := (⟨Cert.ReferenceIdeal.S10000x128, .f32⟩ : BufTy).Contents (Elt Ideal)
abbrev A600 := (⟨Cert.ReferenceIdeal.S600000x128, .f32⟩ : BufTy).Contents (Elt Ideal)
abbrev A600w := (⟨Cert.ReferenceIdeal.S600000x256, .f32⟩ : BufTy).Contents (Elt Ideal)
abbrev AW2 := (⟨Cert.ReferenceIdeal.S128x256, .f32⟩ : BufTy).Contents (Elt Ideal)
abbrev AW2T := (⟨Cert.ReferenceIdeal.S256x128, .f32⟩ : BufTy).Contents (Elt Ideal)
abbrev I600 := (⟨Cert.ReferenceIdeal.S600000x1, .i32⟩ : BufTy).Contents (Elt Ideal)

/-- The row of the 50000-row table that the s-th row number of the column i picks. -/
abbrev row50 (i : I600) (s : Fin 600000) : Fin 50000 := pickedRow 50000 (by decide) (i (ix2 s (0 : Fin 1)))
/-- The row of the 10000-row table that the s-th row number of the column i picks. -/
abbrev row10 (i : I600) (s : Fin 600000) : Fin 10000 := pickedRow 10000 (by decide) (i (ix2 s (0 : Fin 1)))

/-- The kernel's gather from a 50000-row table, read at (s, q). -/
theorem gatherK50_apply (x : A50) (i : I600) (s : Fin 600000) (q : Fin 128) :
    (Host.gather Cert.KernelIdeal.gather_S50000x128_S600000x1_S600000x128_1_0_n_n_0_1_1128 x i : A600) (ix2 s q)
      = x (ix2 (row50 i s) q) :=
  gather_rows_apply (N := 50000) (W := 128) (R := 600000) (by decide)
    Cert.KernelIdeal.Facts₀.gather_S50000x128_S600000x1_S600000x128_1_0_n_n_0_1_1128_wf x i s q

/-- The kernel's gather from a 10000-row table, read at (s, q). -/
theorem gatherK10_apply (x : A10) (i : I600) (s : Fin 600000) (q : Fin 128) :
    (Host.gather Cert.KernelIdeal.gather_S10000x128_S600000x1_S600000x128_1_0_n_n_0_1_1128 x i : A600) (ix2 s q)
      = x (ix2 (row10 i s) q) :=
  gather_rows_apply (N := 10000) (W := 128) (R := 600000) (by decide)
    Cert.KernelIdeal.Facts₀.gather_S10000x128_S600000x1_S600000x128_1_0_n_n_0_1_1128_wf x i s q

/-- The reference's gather from a 50000-row table, read at (s, q): the same row. -/
theorem gatherR50_apply (x : A50) (i : I600) (s : Fin 600000) (q : Fin 128) :
    (Host.gather Cert.ReferenceIdeal.gather_S50000x128_S600000x1_S600000x128_1_0_n_n_0_1_1128 x i : A600) (ix2 s q)
      = x (ix2 (row50 i s) q) :=
  gather_rows_apply (N := 50000) (W := 128) (R := 600000) (by decide)
    Cert.ReferenceIdeal.Facts₀.gather_S50000x128_S600000x1_S600000x128_1_0_n_n_0_1_1128_wf x i s q

/-- The reference's gather from a 10000-row table, read at (s, q): the same row. -/
theorem gatherR10_apply (x : A10) (i : I600) (s : Fin 600000) (q : Fin 128) :
    (Host.gather Cert.ReferenceIdeal.gather_S10000x128_S600000x1_S600000x128_1_0_n_n_0_1_1128 x i : A600) (ix2 s q)
      = x (ix2 (row10 i s) q) :=
  gather_rows_apply (N := 10000) (W := 128) (R := 600000) (by decide)
    Cert.ReferenceIdeal.Facts₀.gather_S10000x128_S600000x1_S600000x128_1_0_n_n_0_1_1128_wf x i s q

/-- The transposed weight at (k, q) is the weight at (q, k). -/
theorem w2T_apply (x7 : AW2) (k : Fin 256) (q : Fin 128) :
    (transpose Cert.ReferenceIdeal.S256x128 [1, 0] x7 Cert.ReferenceIdeal.Facts₀.transposes_S128x256_S256x128_1_0 : AW2T) (ix2 k q)
      = x7 (ix2 q k) :=
  transpose_apply [1, 0] x7 Cert.ReferenceIdeal.Facts₀.transposes_S128x256_S256x128_1_0 (ix2 k q) (ix2 q k) (fun b => match b with
    | ⟨0, _⟩ => rfl
    | ⟨1, _⟩ => rfl)

/-- The reference's product of a 600000×256 by a 256×128 matrix at (s, q): the sum over the 256 contracted columns. -/
theorem dot256_apply (y0 : A600w) (y1 : AW2T) (s : Fin 600000) (q : Fin 128) :
    (Host.dotGeneral (F := Ideal) (φ₁ := .f32) (φ₂ := .f32) Cert.ReferenceIdeal.dot_S600000x256_S256x128_S600000x128_1_0_0_1_n_n none y0 y1 : A600) (ix2 s q)
      = ∑ k : Fin 256, y0 (ix2 s k) * y1 (ix2 k q) := by
  simp only [Host.dotGeneral]
  rw [Ideal.dotGeneral_apply, ← Equiv.sum_comp (ValueIdx.contrEquiv1 Cert.ReferenceIdeal.dot_S600000x256_S256x128_S600000x128_1_0_0_1_n_n 256 rfl rfl).symm]
  refine Finset.sum_congr rfl fun k _ => ?_
  have hk := ValueIdx.contrEquiv1_symm_val Cert.ReferenceIdeal.dot_S600000x256_S256x128_S600000x128_1_0_0_1_n_n 256 rfl rfl k
  have el : Cert.ReferenceIdeal.dot_S600000x256_S256x128_S600000x128_1_0_0_1_n_n.lhsIdx (ix2 s q) ((ValueIdx.contrEquiv1 Cert.ReferenceIdeal.dot_S600000x256_S256x128_S600000x128_1_0_0_1_n_n 256 rfl rfl).symm k) = ix2 s k := funext fun a => Fin.ext (by
    match a with
    | ⟨0, _⟩ => exact Cert.ReferenceIdeal.Read.lhs_main_v34_0 _ _
    | ⟨1, _⟩ => exact (Cert.ReferenceIdeal.Read.lhs_main_v34_1 _ _).trans hk)
  have er : Cert.ReferenceIdeal.dot_S600000x256_S256x128_S600000x128_1_0_0_1_n_n.rhsIdx (ix2 s q) ((ValueIdx.contrEquiv1 Cert.ReferenceIdeal.dot_S600000x256_S256x128_S600000x128_1_0_0_1_n_n 256 rfl rfl).symm k) = ix2 k q := funext fun a => Fin.ext (by
    match a with
    | ⟨0, _⟩ => exact (Cert.ReferenceIdeal.Read.rhs_main_v34_0 _ _).trans hk
    | ⟨1, _⟩ => exact Cert.ReferenceIdeal.Read.rhs_main_v34_1 _ _)
  rw [el, er]

/-- The gather of the product XA plus the gather of the product EB is the reference's product of the side-by-side gathered
    rows with the transposed weight, whenever XA is the product of the first table with the weight's first 128 columns
    and EB the product of the second table with its last 128 columns (each given entry by entry). -/
theorem edge_message (x0 XA : A50) (Xe EB : A10) (x7 : AW2) (iv ie : I600)
    (hXA : ∀ (p : Fin 50000) (q : Fin 128), XA (ix2 p q) = ∑ k : Fin 128, x0 (ix2 p k) * x7 (ix2 q (Fin.castAdd 128 k)))
    (hEB : ∀ (p : Fin 10000) (q : Fin 128), EB (ix2 p q) = ∑ k : Fin 128, Xe (ix2 p k) * x7 (ix2 q (Fin.natAdd 128 k))) :
    (addf (F := Ideal)
        (Host.gather Cert.KernelIdeal.gather_S50000x128_S600000x1_S600000x128_1_0_n_n_0_1_1128 XA iv : A600)
        (Host.gather Cert.KernelIdeal.gather_S10000x128_S600000x1_S600000x128_1_0_n_n_0_1_1128 EB ie : A600) : A600)
      = (Host.dotGeneral (F := Ideal) (φ₁ := .f32) (φ₂ := .f32) Cert.ReferenceIdeal.dot_S600000x256_S256x128_S600000x128_1_0_0_1_n_n none
          (concatenate Cert.ReferenceIdeal.S600000x256 1
            [⟨Cert.ReferenceIdeal.S600000x128, (Host.gather Cert.ReferenceIdeal.gather_S50000x128_S600000x1_S600000x128_1_0_n_n_0_1_1128 x0 iv : A600)⟩,
             ⟨Cert.ReferenceIdeal.S600000x128, (Host.gather Cert.ReferenceIdeal.gather_S10000x128_S600000x1_S600000x128_1_0_n_n_0_1_1128 Xe ie : A600)⟩]
            Cert.ReferenceIdeal.Facts₀.concatenates_S600000x128_S600000x128_S600000x256_d1 : A600w)
          (transpose Cert.ReferenceIdeal.S256x128 [1, 0] x7 Cert.ReferenceIdeal.Facts₀.transposes_S128x256_S256x128_1_0 : AW2T) : A600) := by
  funext j
  obtain ⟨s, q, rfl⟩ : ∃ (s : Fin 600000) (q : Fin 128), j = ix2 s q := ⟨j 0, j 1, eq_ix2 j⟩
  rw [dot256_apply, addf_apply, gatherK50_apply, gatherK10_apply, hXA, hEB]
  symm
  -- the sum over the 256 columns is the sum over the first 128 plus the sum over the last 128
  refine (Fin.sum_univ_add (a := 128) (b := 128) _).trans ?_
  refine congrArg₂ (· + ·) (Finset.sum_congr rfl fun k _ => ?_) (Finset.sum_congr rfl fun k _ => ?_)
  · -- in the first 128 columns the row is the picked row of the first table
    beta_reduce
    rw [cat2_apply_fst (R := 600000) (W1 := 128) (W2 := 128), gatherR50_apply, w2T_apply]
  · -- in the last 128 columns it is the picked row of the second table
    beta_reduce
    rw [cat2_apply_snd (R := 600000) (W1 := 128) (W2 := 128), gatherR10_apply, w2T_apply]

end Cert.EdgeMessage
end
-- ==== Proof.Bridge.lean ====
/-
  Hyperedge to vertex: the kernel's per-vertex sums are the reference's.

  For each incidence pair the reference multiplies the 256-long row [X(v, ·), Xe(e, ·)] by the second layer's weight; the
  kernel has multiplied the two tables by the two halves of that weight beforehand (its second region adding a bias of
  zeros, which changes nothing) and gathers the rows of the products. The two messages agree pair by pair (a sum over
  256 columns is the sum over the first 128 plus the sum over the last 128, and a gather picks its row by the row number
  and the table's height alone); adding the bias, weighting and summing per vertex are then the same operations of equal
  arrays.
-/
import proofs.«107207_j49658411876804_2_alg».proof.Proof.Layouts
import proofs.«107207_j49658411876804_2_alg».proof.Proof.EdgeMessage

set_option maxRecDepth 16384

noncomputable section

namespace Cert.Bridge

open Idealize.ShloMosaic Idealize.ShloMosaic.ValueIdx
open Cert.ReferenceIdeal.Read

/-- The kernel's per-vertex sums, formed from tables `XA` and `EB` that are entry by entry the products with the two halves
    of the second layer's weight, are the reference's. -/
theorem vertexSums_eq (x0 : A50) (x1 x2 : I600) (x4 : V600) (x5 : M128) (x6 : V128) (x7 : M256) (x8 : V128) (XA : A50) (EB : A10)
    (hXA : ∀ (p : Fin 50000) (q : Fin 128), XA (ix2 p q)
      = ∑ k : Fin 128, x0 (ix2 p k)
          * (transpose Cert.KernelIdeal.S128x128 [1, 0]
              (extractStridedSlice Cert.KernelIdeal.S128x128 ![0, 0] x7 Cert.KernelIdeal.Facts₀.slices_S128x256_S128x128_0_0)
              Cert.KernelIdeal.Facts₀.transposes_S128x128_S128x128_1_0 : M128) (ix2 k q))
    (hEB : ∀ (p : Fin 10000) (q : Fin 128), EB (ix2 p q)
      = (∑ k : Fin 128, val_main_v17 (F := Ideal) x0 x1 x2 x4 x5 x6 (ix2 p k)
          * (transpose Cert.KernelIdeal.S128x128 [1, 0]
              (extractStridedSlice Cert.KernelIdeal.S128x128 ![0, 128] x7 Cert.KernelIdeal.Facts₀.slices_S128x256_S128x128_0_128)
              Cert.KernelIdeal.Facts₀.transposes_S128x128_S128x128_1_0 : M128) (ix2 k q))
        + Cert.KernelIdeal.HostChain.zeroRow (F := Ideal) (ix2 (0 : Fin 1) q)) :
    Cert.KernelIdeal.HostChain.vertexSums (F := Ideal) XA EB x1 x2 x8
        (shapeCast Cert.KernelIdeal.S600000x1 x4 Cert.KernelIdeal.Facts₀.shapeCasts_S600000_S600000x1)
      = val_main_v42 (F := Ideal) x0 x1 x2 x4 x5 x6 x7 x8 := by
  unfold Cert.KernelIdeal.HostChain.vertexSums
  rw [weightRows_eq]
  have hmsg := Cert.EdgeMessage.edge_message x0 XA (val_main_v17 (F := Ideal) x0 x1 x2 x4 x5 x6) EB x7
    (Cert.KernelIdeal.HostChain.rowNumbers (F := Ideal) 50000#32 x1) (Cert.KernelIdeal.HostChain.rowNumbers (F := Ideal) 10000#32 x2)
    (fun p q => by rw [hXA p q]; exact Finset.sum_congr rfl fun k _ => by rw [firstHalfT_apply])
    (fun p q => by rw [hEB p q, zeroRow_apply, add_zero]; exact Finset.sum_congr rfl fun k _ => by rw [secondHalfT_apply])
  rw [hmsg]
  rfl

end Cert.Bridge

end
-- ==== Proof.LibPlainProduct.lean ====
/-
  A matrix product into a zero accumulator, read at an entry.

  For the plain dimension numbers (left operand contracted on its last axis, right operand on its first, no batch
  axis) the product of an m×k by a k×n matrix accumulated into the zero matrix has, at row `a` and column `b`, the
  value `∑ c, A (a, c) · B (c, b)` on the extended reals. This is the accumulating-product counterpart of the library's
  `dotGeneral_plain_apply`, with the same proof: the contraction's index set is one axis of extent `k`, re-indexed by
  `Fin k`, and the two operand indices at a contraction index are `(a, c)` and `(c, b)`.
-/
import Idealize.ShloMosaic.PureOps.Ideal.Laws
import Idealize.ShloMosaic.Lib.ValueIdx
import Idealize.ShloMosaic.Lib.StackMember

noncomputable section

namespace Cert.LibPlainProduct

open Idealize.ShloMosaic Idealize.ShloMosaic.ValueIdx

variable {m n : Nat}

/-- The left operand's index at output entry `(a, b)` and contraction coordinate `c` is `(a, c)`. -/
theorem plain_lhsIdx {k : Nat} (a : Fin m) (b : Fin n) (c : Fin k) :
    (DotDims.plain m k n).lhsIdx (ix2 a b) ((contrEquiv1 (DotDims.plain m k n) k rfl rfl).symm c) = ix2 a c := by
  have c2 := contrEquiv1_symm_val (DotDims.plain m k n) k rfl rfl c
  funext ax; apply Fin.ext
  match ax with
  | ⟨0, _⟩ => simp [DotDims.lhsIdx, DotDims.plain]; rfl
  | ⟨1, _⟩ => simp [DotDims.lhsIdx, DotDims.plain]; exact c2

/-- The right operand's index at output entry `(a, b)` and contraction coordinate `c` is `(c, b)`. -/
theorem plain_rhsIdx {k : Nat} (a : Fin m) (b : Fin n) (c : Fin k) :
    (DotDims.plain m k n).rhsIdx (ix2 a b) ((contrEquiv1 (DotDims.plain m k n) k rfl rfl).symm c) = ix2 c b := by
  have c2 := contrEquiv1_symm_val (DotDims.plain m k n) k rfl rfl c
  funext ax; apply Fin.ext
  match ax with
  | ⟨0, _⟩ => simp [DotDims.rhsIdx, DotDims.plain]; exact c2
  | ⟨1, _⟩ => simp [DotDims.rhsIdx, DotDims.plain]; rfl

/-- The plain product of an m×k by a k×n matrix accumulated into zero, at entry `(a, b)`, is the sum over the
    contracted coordinate of the products of the entries. At the ideal values. -/
theorem matmul_plain_zero_apply {k : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  rw [plain_lhsIdx, plain_rhsIdx]

end Cert.LibPlainProduct

end
-- ==== Proof.RegionArrays0a.lean ====
import proofs.«107207_j49658411876804_2_alg».proof.Proof.Gen.KernelIdeal.Frame
import proofs.«107207_j49658411876804_2_alg».proof.Proof.LibPlainProduct
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.RegionArrays
open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-! # Region 0, first output: the array after all ten grid points

The region is a row-tiled dense layer. Grid point t reads rows 5000 t … 5000 t + 4999 of the input X (a 5000×128 block),
the whole 128×128 matrix W and the whole 1×128 bias row B, and writes the block X_t · W + B to rows 5000 t … 5000 t + 4999 of the
output. An entry (p, q) of the output therefore depends on row p of X, column q of W and entry q of B only: it is
∑ₖ X(p, k) · W(k, q) + B(0, q). The ten output blocks tile the 50000 rows exactly (row r lies in block r / 5000).
On the extended reals a change of format is the identity and a product accumulated into zero is a plain sum. -/

theorem hz0a : (![0, 0] : Fin 2 → Nat) = fun _ => 0 := funext fun a => by fin_cases a <;> rfl

theorem add_left_eq0a {a a' b : EReal} (h : a = a') : a + b = a' + b := by rw [h]
theorem mul_left_eq0a {a a' b : EReal} (h : a = a') : a * b = a' * b := by rw [h]

/-- A function of a row and a column, as a function of a rank-2 index. -/
def rowCol0a (g : Fin 50000 → Fin 128 → EReal) : S50000x128.Idx → EReal := fun i => g (i 0) (i 1)

/-- The dense layer of whole arrays: row p of X times W, plus the bias row. -/
def dense0a (X : S50000x128.Idx → EReal) (W : S128x128.Idx → EReal) (B : S1x128.Idx → EReal) : S50000x128.Idx → EReal :=
  rowCol0a fun p q => (∑ k : Fin 128, X (ix2 p k) * W (ix2 k q)) + B (ix2 (0 : Fin 1) q)

theorem dense0a_apply (X : S50000x128.Idx → EReal) (W : S128x128.Idx → EReal) (B : S1x128.Idx → EReal) (p : Fin 50000) (q : Fin 128) :
    dense0a X W B (ix2 p q) = (∑ k : Fin 128, X (ix2 p k) * W (ix2 k q)) + B (ix2 (0 : Fin 1) q) := rfl

/-- The matrix-product record of the body is the plain one: rows by contraction, contraction by columns. -/
theorem dot0a_eq : dot_S5000x128_S128x128_S5000x128_1_0_0_1_n_n = DotDims.plain 5000 128 128 := rfl

/-- The body's value at entry (p, q) of its block: row p of the input block times column q of the matrix, plus the bias. -/
theorem pay0a_apply (x0 : Vec Ideal S5000x128 .f32) (x1 : Vec Ideal S128x128 .f32) (x2 : Vec Ideal S1x128 .f32)
    (p : Fin 5000) (q : Fin 128) :
    (k0_pay2 (F := Ideal) x0 x1 x2 : S5000x128.Idx → EReal) (ix2 p q)
      = (∑ k : Fin 128, (x0 : S5000x128.Idx → EReal) (ix2 p k) * (x1 : S128x128.Idx → EReal) (ix2 k q))
        + (x2 : S1x128.Idx → EReal) (ix2 (0 : Fin 1) q) := by
  unfold k0_pay2 k0_pay1
  refine (addf_apply _ _ _).trans ?_
  congr 1
  · rw [dot0a_eq]
    refine (Cert.LibPlainProduct.matmul_plain_zero_apply none _ _ p q).trans ?_
    refine Finset.sum_congr rfl fun k _ => ?_
    rw [shapeCast_self]; rfl
  · rw [shapeCast_self]
    exact broadcastTo_1b_ab_apply x2 _ p q

/-! ## The index maps, decided over the grid -/

/-- At point t the row windows sit at block t (rows 5000 t … 5000 t + 4999) and the resident windows at block 0. -/
theorem idx0a : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem lt0a (t : Fin cfg0.N) : t.val < 10 := lt_of_lt_of_eq t.isLt N_0

/-- Row p of block t is row 5000 t + p of the array. -/
def row0a (t : Fin cfg0.N) (p : Fin 5000) : Fin 50000 := ⟨5000 * t.val + p.val, by have := lt0a t; have := p.isLt; omega⟩

/-! ## The input blocks -/

/-- Window 0's block at point t is rows 5000 t … 5000 t + 4999 of its array. -/
theorem iblk0a_0_apply (c : Dev nD) (t : Fin cfg0.N) (p : Fin 5000) (k : Fin 128) :
    (iblk0 (F := Ideal) V c 0 t : S5000x128.Idx → EReal) (ix2 p k) = (V c main_arg0 : S50000x128.Idx → EReal) (ix2 (row0a t p) k) := by
  obtain ⟨e0, e1, -⟩ := idx0a t
  unfold iblk0
  show V c main_arg0 _ = V c main_arg0 _
  congr 1
  funext a; apply Fin.ext
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- Window 1 is resident: its block index is 0 on both axes at every point, so its block is the whole array. -/
theorem iblk0a_1_eq (c : Dev nD) (t : Fin cfg0.N) : (iblk0 (F := Ideal) V c 1 t : S128x128.Idx → EReal) = V c main_v1 := by
  obtain ⟨-, -, e0, e1, -⟩ := idx0a t
  funext y
  unfold iblk0
  show V c main_v1 _ = V c main_v1 y
  congr 1
  funext a; apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- Window 2 is resident: its block index is 0 on both axes at every point, so its block is the whole array. -/
theorem iblk0a_2_eq (c : Dev nD) (t : Fin cfg0.N) : (iblk0 (F := Ideal) V c 2 t : S1x128.Idx → EReal) = V c main_v7 := by
  obtain ⟨-, -, -, -, e0, e1, -⟩ := idx0a t
  funext y
  unfold iblk0
  show V c main_v7 _ = V c main_v7 y
  congr 1
  funext a; apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-! ## What each point writes back, and the blocks' cover -/

/-- Entry (p, q) of output block t sits at row 5000 t + p, column q of the output array. -/
theorem emb0a (t : Fin cfg0.N) (p : Fin 5000) (q : Fin 128) :
    ((cfg0.win 4).blk t).view.emb (ix2 p q) = (ix2 (row0a t p) q : S50000x128.Idx) := by
  obtain ⟨-, -, -, -, -, -, -, -, e0, e1, -⟩ := idx0a t
  funext a; apply Fin.ext
  match a with
  | ⟨0, _⟩ => show win0_4.index t (0 : Fin 2) * 5000 + 1 * p.val = 5000 * t.val + p.val; rw [e0]; omega
  | ⟨1, _⟩ => show win0_4.index t (1 : Fin 2) * 128 + 1 * q.val = q.val; rw [e1]; omega

/-- What point t writes back to output 4 is block t of the dense layer of the whole input arrays. -/
theorem flushed0a_eq (c : Dev nD) (t : Fin cfg0.N) :
    (dat0 (F := Ideal) V c).flushed 4 t
      = ((cfg0.win 4).blk t).view.read (Elt Ideal) (dense0a (V c main_arg0) (V c main_v1) (V c main_v7)) := by
  show (cfg0.win 4).cut (grid0.coords t) ((dat0 V c).after 4 t) = _
  rw [after0_4]
  unfold out0_4
  rw [View.canon_unit_zero hz0a]
  simp only [View.ld_unit_zero (S := S5000x128) hz0a, View.ld_unit_zero (S := S128x128) hz0a, View.ld_unit_zero (S := S1x128) hz0a]
  rw [iblk0a_1_eq, iblk0a_2_eq]
  funext j
  obtain ⟨p, q, rfl⟩ : ∃ (p : Fin 5000) (q : Fin 128), j = (ix2 p q : S5000x128.Idx) := ⟨j 0, j 1, eq_ix2 (n0 := 5000) (n1 := 128) j⟩
  show k0_pay2 (iblk0 V c 0 t) (V c main_v1) (V c main_v7) (ix2 p q)
    = (dense0a (V c main_arg0) (V c main_v1) (V c main_v7)) (((cfg0.win 4).blk t).view.emb (ix2 p q))
  rw [emb0a t p q]
  refine (pay0a_apply _ _ _ p q).trans ?_
  refine Eq.trans ?_ (dense0a_apply _ _ _ _ _).symm
  exact add_left_eq0a (Finset.sum_congr rfl fun k _ => mul_left_eq0a (iblk0a_0_apply V c t p k))

/-- An index of the output array is in block t iff each coordinate is in the block's range on its axis. -/
theorem mem_blk0a (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v8_0).slice (win0_4.rect t)).set ↔ _
  rw [View.set_slice_whole, Rect.mem_set_unit]
  exact Iff.rfl

/-- The 10 blocks tile the output array: row r lies in block r / 5000. -/
theorem tiles0a (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, -, -, e0, e1, -⟩ := idx0a t
  refine ⟨t, flush0_4 t, ?_⟩
  rw [mem_blk0a]
  intro a
  match a with
  | ⟨0, _⟩ => show win0_4.index t (0 : Fin 2) * 5000 ≤ (i 0).val ∧ (i 0).val < win0_4.index t (0 : Fin 2) * 5000 + 5000; rw [e0, ht]; omega
  | ⟨1, _⟩ => show win0_4.index t (1 : Fin 2) * 128 ≤ (i 1).val ∧ (i 1).val < win0_4.index t (1 : Fin 2) * 128 + 128; rw [e1]; omega

/-- Output array 4 after the region: the dense layer of the whole input arrays. -/
theorem array0a (c : Dev nD) :
    (dat0 (F := Ideal) V c).arrAt 4 cfg0.N = dense0a (V c main_arg0) (V c main_v1) (V c main_v7) :=
  (dat0 V c).arrAt_eq_of_cover 4 _ (fun t _ => flushed0a_eq V c t) tiles0a

theorem region0_out4 (c : Dev nD) (X : S50000x128.Idx → EReal) (W : S128x128.Idx → EReal) (B : S1x128.Idx → EReal)
    (hX : V c main_arg0 = X) (hW : V c main_v1 = W) (hB : V c main_v7 = B) (p : Fin 50000) (q : Fin 128) :
    ((dat0 (F := Ideal) V c).arrAt 4 cfg0.N : S50000x128.Idx → EReal) (ix2 p q)
      = (∑ k : Fin 128, X (ix2 p k) * W (ix2 k q)) + B (ix2 (0 : Fin 1) q) := by
  subst hX hW hB
  exact (congrFun (array0a V c) (ix2 p q)).trans (dense0a_apply _ _ _ p q)

end Cert.KernelIdeal.RegionArrays
end
-- ==== Proof.RegionArrays0b.lean ====
import proofs.«107207_j49658411876804_2_alg».proof.Proof.Gen.KernelIdeal.Frame
import proofs.«107207_j49658411876804_2_alg».proof.Proof.LibPlainProduct
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.RegionArrays
open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-! # Region 0, second output: the array after all ten grid points

The same region's second output is the plain product with a second resident 128×128 matrix W', with no bias: grid point t
reads rows 5000 t … 5000 t + 4999 of the input X and the whole of W', and writes X_t · W' to the same rows of the output.
Entry (p, q) of the output is ∑ₖ X(p, k) · W'(k, q); the ten blocks tile the 50000 rows exactly. -/

theorem hz0b : (![0, 0] : Fin 2 → Nat) = fun _ => 0 := funext fun a => by fin_cases a <;> rfl

theorem add_left_eq0b {a a' b : EReal} (h : a = a') : a + b = a' + b := by rw [h]
theorem mul_left_eq0b {a a' b : EReal} (h : a = a') : a * b = a' * b := by rw [h]

/-- A function of a row and a column, as a function of a rank-2 index. -/
def rowCol0b (g : Fin 50000 → Fin 128 → EReal) : S50000x128.Idx → EReal := fun i => g (i 0) (i 1)

/-- The product of whole arrays: row p of X times column q of W. -/
def product0b (X : S50000x128.Idx → EReal) (W : S128x128.Idx → EReal) : S50000x128.Idx → EReal :=
  rowCol0b fun p q => ∑ k : Fin 128, X (ix2 p k) * W (ix2 k q)

theorem product0b_apply (X : S50000x128.Idx → EReal) (W : S128x128.Idx → EReal) (p : Fin 50000) (q : Fin 128) :
    product0b X W (ix2 p q) = ∑ k : Fin 128, X (ix2 p k) * W (ix2 k q) := rfl

/-- The matrix-product record of the body is the plain one: rows by contraction, contraction by columns. -/
theorem dot0b_eq : dot_S5000x128_S128x128_S5000x128_1_0_0_1_n_n = DotDims.plain 5000 128 128 := rfl

/-- The body's value at entry (p, q) of its block: row p of the input block times column q of the matrix. -/
theorem pay0b_apply (x0 : Vec Ideal S5000x128 .f32) (x3 : Vec Ideal S128x128 .f32) (p : Fin 5000) (q : Fin 128) :
    (k0_pay3 (F := Ideal) x0 x3 : S5000x128.Idx → EReal) (ix2 p q)
      = ∑ k : Fin 128, (x0 : S5000x128.Idx → EReal) (ix2 p k) * (x3 : S128x128.Idx → EReal) (ix2 k q) := by
  unfold k0_pay3 k0_pay1
  rw [dot0b_eq]
  refine (Cert.LibPlainProduct.matmul_plain_zero_apply none _ _ p q).trans ?_
  refine Finset.sum_congr rfl fun k _ => ?_
  rw [shapeCast_self]; rfl

/-! ## The index maps, decided over the grid -/

/-- At point t the row windows sit at block t (rows 5000 t … 5000 t + 4999) and the resident windows at block 0. -/
theorem idx0b : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem lt0b (t : Fin cfg0.N) : t.val < 10 := lt_of_lt_of_eq t.isLt N_0

/-- Row p of block t is row 5000 t + p of the array. -/
def row0b (t : Fin cfg0.N) (p : Fin 5000) : Fin 50000 := ⟨5000 * t.val + p.val, by have := lt0b t; have := p.isLt; omega⟩

/-! ## The input blocks -/

/-- Window 0's block at point t is rows 5000 t … 5000 t + 4999 of its array. -/
theorem iblk0b_0_apply (c : Dev nD) (t : Fin cfg0.N) (p : Fin 5000) (k : Fin 128) :
    (iblk0 (F := Ideal) V c 0 t : S5000x128.Idx → EReal) (ix2 p k) = (V c main_arg0 : S50000x128.Idx → EReal) (ix2 (row0b t p) k) := by
  obtain ⟨e0, e1, -⟩ := idx0b t
  unfold iblk0
  show V c main_arg0 _ = V c main_arg0 _
  congr 1
  funext a; apply Fin.ext
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- Window 3 is resident: its block index is 0 on both axes at every point, so its block is the whole array. -/
theorem iblk0b_3_eq (c : Dev nD) (t : Fin cfg0.N) : (iblk0 (F := Ideal) V c 3 t : S128x128.Idx → EReal) = V c main_v3 := by
  obtain ⟨-, -, -, -, -, -, e0, e1, -⟩ := idx0b t
  funext y
  unfold iblk0
  show V c main_v3 _ = V c main_v3 y
  congr 1
  funext a; apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-! ## What each point writes back, and the blocks' cover -/

/-- Entry (p, q) of output block t sits at row 5000 t + p, column q of the output array. -/
theorem emb0b (t : Fin cfg0.N) (p : Fin 5000) (q : Fin 128) :
    ((cfg0.win 5).blk t).view.emb (ix2 p q) = (ix2 (row0b t p) q : S50000x128.Idx) := by
  obtain ⟨-, -, -, -, -, -, -, -, -, -, e0, e1⟩ := idx0b t
  funext a; apply Fin.ext
  match a with
  | ⟨0, _⟩ => show win0_5.index t (0 : Fin 2) * 5000 + 1 * p.val = 5000 * t.val + p.val; rw [e0]; omega
  | ⟨1, _⟩ => show win0_5.index t (1 : Fin 2) * 128 + 1 * q.val = q.val; rw [e1]; omega

/-- What point t writes back to output 5 is block t of the product of the whole input arrays. -/
theorem flushed0b_eq (c : Dev nD) (t : Fin cfg0.N) :
    (dat0 (F := Ideal) V c).flushed 5 t
      = ((cfg0.win 5).blk t).view.read (Elt Ideal) (product0b (V c main_arg0) (V c main_v3)) := by
  show (cfg0.win 5).cut (grid0.coords t) ((dat0 V c).after 5 t) = _
  rw [after0_5]
  unfold out0_5
  rw [View.canon_unit_zero hz0b]
  simp only [View.ld_unit_zero (S := S5000x128) hz0b, View.ld_unit_zero (S := S128x128) hz0b]
  rw [iblk0b_3_eq]
  funext j
  obtain ⟨p, q, rfl⟩ : ∃ (p : Fin 5000) (q : Fin 128), j = (ix2 p q : S5000x128.Idx) := ⟨j 0, j 1, eq_ix2 (n0 := 5000) (n1 := 128) j⟩
  show k0_pay3 (iblk0 V c 0 t) (V c main_v3) (ix2 p q)
    = (product0b (V c main_arg0) (V c main_v3)) (((cfg0.win 5).blk t).view.emb (ix2 p q))
  rw [emb0b t p q]
  refine (pay0b_apply _ _ p q).trans ?_
  refine Eq.trans ?_ (product0b_apply _ _ _ _).symm
  exact Finset.sum_congr rfl fun k _ => mul_left_eq0b (iblk0b_0_apply V c t p k)

/-- An index of the output array is in block t iff each coordinate is in the block's range on its axis. -/
theorem mem_blk0b (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v8_1).slice (win0_5.rect t)).set ↔ _
  rw [View.set_slice_whole, Rect.mem_set_unit]
  exact Iff.rfl

/-- The 10 blocks tile the output array: row r lies in block r / 5000. -/
theorem tiles0b (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, -, -, -, -, e0, e1⟩ := idx0b t
  refine ⟨t, flush0_5 t, ?_⟩
  rw [mem_blk0b]
  intro a
  match a with
  | ⟨0, _⟩ => show win0_5.index t (0 : Fin 2) * 5000 ≤ (i 0).val ∧ (i 0).val < win0_5.index t (0 : Fin 2) * 5000 + 5000; rw [e0, ht]; omega
  | ⟨1, _⟩ => show win0_5.index t (1 : Fin 2) * 128 ≤ (i 1).val ∧ (i 1).val < win0_5.index t (1 : Fin 2) * 128 + 128; rw [e1]; omega

/-- Output array 5 after the region: the product of the whole input arrays. -/
theorem array0b (c : Dev nD) :
    (dat0 (F := Ideal) V c).arrAt 5 cfg0.N = product0b (V c main_arg0) (V c main_v3) :=
  (dat0 V c).arrAt_eq_of_cover 5 _ (fun t _ => flushed0b_eq V c t) tiles0b

theorem region0_out5 (c : Dev nD) (X : S50000x128.Idx → EReal) (W : S128x128.Idx → EReal)
    (hX : V c main_arg0 = X) (hW : V c main_v3 = W) (p : Fin 50000) (q : Fin 128) :
    ((dat0 (F := Ideal) V c).arrAt 5 cfg0.N : S50000x128.Idx → EReal) (ix2 p q)
      = ∑ k : Fin 128, X (ix2 p k) * W (ix2 k q) := by
  subst hX hW
  exact (congrFun (array0b V c) (ix2 p q)).trans (product0b_apply _ _ p q)

end Cert.KernelIdeal.RegionArrays
end
-- ==== Proof.RegionArrays1.lean ====
import proofs.«107207_j49658411876804_2_alg».proof.Proof.Gen.KernelIdeal.Frame
import proofs.«107207_j49658411876804_2_alg».proof.Proof.LibPlainProduct
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.RegionArrays
open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-! # Region 1: the output array after all five grid points

The region is a row-tiled dense layer on 10000 rows in blocks of 2000. Grid point t reads rows 2000 t … 2000 t + 1999 of the
input X, the whole 128×128 matrix W and the whole 1×128 bias row B, and writes X_t · W + B to the same rows of the output.
Entry (p, q) of the output is ∑ₖ X(p, k) · W(k, q) + B(0, q); the five blocks tile the 10000 rows exactly (row r lies in
block r / 2000). On the extended reals a change of format is the identity and a product accumulated into zero is a plain sum. -/

theorem hz1 : (![0, 0] : Fin 2 → Nat) = fun _ => 0 := funext fun a => by fin_cases a <;> rfl

theorem add_left_eq1 {a a' b : EReal} (h : a = a') : a + b = a' + b := by rw [h]
theorem mul_left_eq1 {a a' b : EReal} (h : a = a') : a * b = a' * b := by rw [h]

/-- A function of a row and a column, as a function of a rank-2 index. -/
def rowCol1 (g : Fin 10000 → Fin 128 → EReal) : S10000x128.Idx → EReal := fun i => g (i 0) (i 1)

/-- The dense layer of whole arrays: row p of X times W, plus the bias row. -/
def dense1 (X : S10000x128.Idx → EReal) (W : S128x128.Idx → EReal) (B : S1x128.Idx → EReal) : S10000x128.Idx → EReal :=
  rowCol1 fun p q => (∑ k : Fin 128, X (ix2 p k) * W (ix2 k q)) + B (ix2 (0 : Fin 1) q)

theorem dense1_apply (X : S10000x128.Idx → EReal) (W : S128x128.Idx → EReal) (B : S1x128.Idx → EReal) (p : Fin 10000) (q : Fin 128) :
    dense1 X W B (ix2 p q) = (∑ k : Fin 128, X (ix2 p k) * W (ix2 k q)) + B (ix2 (0 : Fin 1) q) := rfl

/-- The matrix-product record of the body is the plain one: rows by contraction, contraction by columns. -/
theorem dot1_eq : dot_S2000x128_S128x128_S2000x128_1_0_0_1_n_n = DotDims.plain 2000 128 128 := rfl

/-- The body's value at entry (p, q) of its block: row p of the input block times column q of the matrix, plus the bias. -/
theorem pay1_apply (x0 : Vec Ideal S2000x128 .f32) (x1 : Vec Ideal S128x128 .f32) (x2 : Vec Ideal S1x128 .f32)
    (p : Fin 2000) (q : Fin 128) :
    (k1_pay1 (F := Ideal) x0 x1 x2 : S2000x128.Idx → EReal) (ix2 p q)
      = (∑ k : Fin 128, (x0 : S2000x128.Idx → EReal) (ix2 p k) * (x1 : S128x128.Idx → EReal) (ix2 k q))
        + (x2 : S1x128.Idx → EReal) (ix2 (0 : Fin 1) q) := by
  unfold k1_pay1
  refine (addf_apply _ _ _).trans ?_
  congr 1
  · rw [dot1_eq]
    refine (Cert.LibPlainProduct.matmul_plain_zero_apply none _ _ p q).trans ?_
    refine Finset.sum_congr rfl fun k _ => ?_
    rw [shapeCast_self, shapeCast_self]; rfl
  · rw [shapeCast_self]
    exact broadcastTo_1b_ab_apply x2 _ p q

/-! ## The index maps, decided over the grid -/

/-- At point t the row windows sit at block t (rows 2000 t … 2000 t + 1999) and the resident windows at block 0. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem lt1 (t : Fin cfg1.N) : t.val < 5 := lt_of_lt_of_eq t.isLt N_1

/-- Row p of block t is row 2000 t + p of the array. -/
def row1 (t : Fin cfg1.N) (p : Fin 2000) : Fin 10000 := ⟨2000 * t.val + p.val, by have := lt1 t; have := p.isLt; omega⟩

/-! ## The input blocks -/

/-- Window 0's block at point t is rows 2000 t … 2000 t + 1999 of its array. -/
theorem iblk1_0_apply (c : Dev nD) (t : Fin cfg1.N) (p : Fin 2000) (k : Fin 128) :
    (iblk1 (F := Ideal) V c 0 t : S2000x128.Idx → EReal) (ix2 p k) = (V c main_v20 : S10000x128.Idx → EReal) (ix2 (row1 t p) k) := by
  obtain ⟨e0, e1, -⟩ := idx1 t
  unfold iblk1
  show V c main_v20 _ = V c main_v20 _
  congr 1
  funext a; apply Fin.ext
  match a with
  | ⟨0, _⟩ => show win1_0.index t (0 : Fin 2) * 2000 + 1 * p.val = 2000 * t.val + p.val; rw [e0]; omega
  | ⟨1, _⟩ => show win1_0.index t (1 : Fin 2) * 128 + 1 * k.val = k.val; rw [e1]; omega

/-- Window 1 is resident: its block index is 0 on both axes at every point, so its block is the whole array. -/
theorem iblk1_1_eq (c : Dev nD) (t : Fin cfg1.N) : (iblk1 (F := Ideal) V c 1 t : S128x128.Idx → EReal) = V c main_v5 := by
  obtain ⟨-, -, e0, e1, -⟩ := idx1 t
  funext y
  unfold iblk1
  show V c main_v5 _ = V c main_v5 y
  congr 1
  funext a; apply Fin.ext
  match a with
  | ⟨0, _⟩ => show win1_1.index t (0 : Fin 2) * 128 + 1 * (y 0).val = (y 0).val; rw [e0]; omega
  | ⟨1, _⟩ => show win1_1.index t (1 : Fin 2) * 128 + 1 * (y 1).val = (y 1).val; rw [e1]; omega

/-- Window 2 is resident: its block index is 0 on both axes at every point, so its block is the whole array. -/
theorem iblk1_2_eq (c : Dev nD) (t : Fin cfg1.N) : (iblk1 (F := Ideal) V c 2 t : S1x128.Idx → EReal) = V c main_v22 := by
  obtain ⟨-, -, -, -, e0, e1, -⟩ := idx1 t
  funext y
  unfold iblk1
  show V c main_v22 _ = V c main_v22 y
  congr 1
  funext a; apply Fin.ext
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-! ## What each point writes back, and the blocks' cover -/

/-- Entry (p, q) of output block t sits at row 2000 t + p, column q of the output array. -/
theorem emb1 (t : Fin cfg1.N) (p : Fin 2000) (q : Fin 128) :
    ((cfg1.win 3).blk t).view.emb (ix2 p q) = (ix2 (row1 t p) q : S10000x128.Idx) := by
  obtain ⟨-, -, -, -, -, -, e0, e1⟩ := idx1 t
  funext a; apply Fin.ext
  match a with
  | ⟨0, _⟩ => show win1_3.index t (0 : Fin 2) * 2000 + 1 * p.val = 2000 * t.val + p.val; rw [e0]; omega
  | ⟨1, _⟩ => show win1_3.index t (1 : Fin 2) * 128 + 1 * q.val = q.val; rw [e1]; omega

/-- What point t writes back to output 3 is block t of the dense layer of the whole input arrays. -/
theorem flushed1_eq (c : Dev nD) (t : Fin cfg1.N) :
    (dat1 (F := Ideal) V c).flushed 3 t
      = ((cfg1.win 3).blk t).view.read (Elt Ideal) (dense1 (V c main_v20) (V c main_v5) (V c main_v22)) := by
  show (cfg1.win 3).cut (grid1.coords t) ((dat1 V c).after 3 t) = _
  rw [after1_3]
  unfold out1_3
  rw [View.canon_unit_zero hz1]
  simp only [View.ld_unit_zero (S := S2000x128) hz1, View.ld_unit_zero (S := S128x128) hz1, View.ld_unit_zero (S := S1x128) hz1]
  rw [iblk1_1_eq, iblk1_2_eq]
  funext j
  obtain ⟨p, q, rfl⟩ : ∃ (p : Fin 2000) (q : Fin 128), j = (ix2 p q : S2000x128.Idx) := ⟨j 0, j 1, eq_ix2 (n0 := 2000) (n1 := 128) j⟩
  show k1_pay1 (iblk1 V c 0 t) (V c main_v5) (V c main_v22) (ix2 p q)
    = (dense1 (V c main_v20) (V c main_v5) (V c main_v22)) (((cfg1.win 3).blk t).view.emb (ix2 p q))
  rw [emb1 t p q]
  refine (pay1_apply _ _ _ p q).trans ?_
  refine Eq.trans ?_ (dense1_apply _ _ _ _ _).symm
  exact add_left_eq1 (Finset.sum_congr rfl fun k _ => mul_left_eq1 (iblk1_0_apply V c t p k))

/-- An index of the output array is in block t iff each coordinate is in the block's range on its axis. -/
theorem mem_blk1 (t : Fin cfg1.N) (i : S10000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v23).slice (win1_3.rect t)).set ↔ _
  rw [View.set_slice_whole, Rect.mem_set_unit]
  exact Iff.rfl

/-- The 5 blocks tile the output array: row r lies in block r / 2000. -/
theorem tiles1 (i : S10000x128.Idx) : ∃ t : Fin cfg1.N, (cfg1.win 3).flush t = true ∧ i ∈ ((cfg1.win 3).blk t).view.set := by
  have hi0 : (i 0).val < 10000 := (i 0).isLt
  have hi1 : (i 1).val < 128 := (i 1).isLt
  have hN : cfg1.N = 5 := N_1
  obtain ⟨t, ht⟩ : ∃ t : Fin cfg1.N, t.val = (i 0).val / 2000 := ⟨⟨(i 0).val / 2000, by rw [hN]; omega⟩, rfl⟩
  obtain ⟨-, -, -, -, -, -, e0, e1⟩ := idx1 t
  refine ⟨t, flush1_3 t, ?_⟩
  rw [mem_blk1]
  intro a
  match a with
  | ⟨0, _⟩ => show win1_3.index t (0 : Fin 2) * 2000 ≤ (i 0).val ∧ (i 0).val < win1_3.index t (0 : Fin 2) * 2000 + 2000; rw [e0, ht]; omega
  | ⟨1, _⟩ => show win1_3.index t (1 : Fin 2) * 128 ≤ (i 1).val ∧ (i 1).val < win1_3.index t (1 : Fin 2) * 128 + 128; rw [e1]; omega

/-- Output array 3 after the region: the dense layer of the whole input arrays. -/
theorem array1 (c : Dev nD) :
    (dat1 (F := Ideal) V c).arrAt 3 cfg1.N = dense1 (V c main_v20) (V c main_v5) (V c main_v22) :=
  (dat1 V c).arrAt_eq_of_cover 3 _ (fun t _ => flushed1_eq V c t) tiles1

theorem region1_out3 (c : Dev nD) (X : S10000x128.Idx → EReal) (W : S128x128.Idx → EReal) (B : S1x128.Idx → EReal)
    (hX : V c main_v20 = X) (hW : V c main_v5 = W) (hB : V c main_v22 = B) (p : Fin 10000) (q : Fin 128) :
    ((dat1 (F := Ideal) V c).arrAt 3 cfg1.N : S10000x128.Idx → EReal) (ix2 p q)
      = (∑ k : Fin 128, X (ix2 p k) * W (ix2 k q)) + B (ix2 (0 : Fin 1) q) := by
  subst hX hW hB
  exact (congrFun (array1 V c) (ix2 p q)).trans (dense1_apply _ _ _ p q)

end Cert.KernelIdeal.RegionArrays
end
-- ==== Proof.RegionArrays2.lean ====
import proofs.«107207_j49658411876804_2_alg».proof.Proof.Gen.KernelIdeal.Frame
import proofs.«107207_j49658411876804_2_alg».proof.Proof.LibPlainProduct
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.RegionArrays
open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-! # Region 2: the output array after all ten grid points

The region is a row-tiled dense layer of a half-and-half mixture of two inputs. Grid point t reads rows 5000 t … 5000 t + 4999
of X0 and of Xv, the whole 128×128 matrix W and the whole 1×128 bias row B, forms h · X0_t + h · Xv_t entry by entry
(h the constant one half, written as its 32-bit word and never evaluated), and writes (h · X0_t + h · Xv_t) · W + B to the same rows of the
output. Entry (p, q) of the output is ∑ₖ (h · X0(p, k) + h · Xv(p, k)) · W(k, q) + B(0, q); the ten blocks tile the 50000 rows
exactly (row r lies in block r / 5000). On the extended reals a change of format is the identity and a product accumulated into
zero is a plain sum. -/

theorem hz2 : (![0, 0] : Fin 2 → Nat) = fun _ => 0 := funext fun a => by fin_cases a <;> rfl

theorem add_left_eq2 {a a' b : EReal} (h : a = a') : a + b = a' + b := by rw [h]
theorem mul_left_eq2 {a a' b : EReal} (h : a = a') : a * b = a' * b := by rw [h]

/-- A function of a row and a column, as a function of a rank-2 index. -/
def rowCol2 (g : Fin 50000 → Fin 128 → EReal) : S50000x128.Idx → EReal := fun i => g (i 0) (i 1)

/-- The dense layer of the mixture of whole arrays: row p of h · X0 + h · Xv times W, plus the bias row. -/
def dense2 (X0 Xv : S50000x128.Idx → EReal) (W : S128x128.Idx → EReal) (B : S1x128.Idx → EReal) : S50000x128.Idx → EReal :=
  rowCol2 fun p q => (∑ k : Fin 128, (Ideal.ofBits .f32 0x3F000000#32 * X0 (ix2 p k) + Ideal.ofBits .f32 0x3F000000#32 * Xv (ix2 p k)) * W (ix2 k q)) + B (ix2 (0 : Fin 1) q)

theorem dense2_apply (X0 Xv : S50000x128.Idx → EReal) (W : S128x128.Idx → EReal) (B : S1x128.Idx → EReal) (p : Fin 50000) (q : Fin 128) :
    dense2 X0 Xv W B (ix2 p q)
      = (∑ k : Fin 128, (Ideal.ofBits .f32 0x3F000000#32 * X0 (ix2 p k) + Ideal.ofBits .f32 0x3F000000#32 * Xv (ix2 p k)) * W (ix2 k q)) + B (ix2 (0 : Fin 1) q) := rfl

theorem add_eq2 {a a' b b' : EReal} (h1 : a = a') (h2 : b = b') : a + b = a' + b' := by rw [h1, h2]
theorem mul_right_eq2 {a b b' : EReal} (h : b = b') : a * b = a * b' := by rw [h]

/-- The matrix-product record of the body is the plain one: rows by contraction, contraction by columns. -/
theorem dot2_eq : dot_S5000x128_S128x128_S5000x128_1_0_0_1_n_n = DotDims.plain 5000 128 128 := rfl

/-- The body's value at entry (p, q) of its block: row p of the mixture of the two input blocks times column q of the
    matrix, plus the bias. The first block argument is the one multiplied first (X0's block), the second Xv's. -/
theorem pay2_apply (x0 x3 : Vec Ideal S5000x128 .f32) (x9 : Vec Ideal S128x128 .f32) (x13 : Vec Ideal S1x128 .f32)
    (p : Fin 5000) (q : Fin 128) :
    (k2_pay1 (F := Ideal) x0 x3 x9 x13 : S5000x128.Idx → EReal) (ix2 p q)
      = (∑ k : Fin 128, (Ideal.ofBits .f32 0x3F000000#32 * (x0 : S5000x128.Idx → EReal) (ix2 p k) + Ideal.ofBits .f32 0x3F000000#32 * (x3 : S5000x128.Idx → EReal) (ix2 p k))
            * (x9 : S128x128.Idx → EReal) (ix2 k q))
        + (x13 : S1x128.Idx → EReal) (ix2 (0 : Fin 1) q) := by
  unfold k2_pay1
  refine (addf_apply _ _ _).trans ?_
  congr 1
  · rw [dot2_eq]
    refine (Cert.LibPlainProduct.matmul_plain_zero_apply none _ _ p q).trans ?_
    refine Finset.sum_congr rfl fun k _ => ?_
    rw [shapeCast_self, shapeCast_self]; rfl
  · rw [shapeCast_self]
    exact broadcastTo_1b_ab_apply x13 _ p q

/-! ## The index maps, decided over the grid -/

/-- At point t the row windows sit at block t (rows 5000 t … 5000 t + 4999) and the resident windows at block 0. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem lt2 (t : Fin cfg2.N) : t.val < 10 := lt_of_lt_of_eq t.isLt N_2

/-- Row p of block t is row 5000 t + p of the array. -/
def row2 (t : Fin cfg2.N) (p : Fin 5000) : Fin 50000 := ⟨5000 * t.val + p.val, by have := lt2 t; have := p.isLt; omega⟩

/-! ## The input blocks -/

/-- Window 0's block at point t is rows 5000 t … 5000 t + 4999 of its array. -/
theorem iblk2_0_apply (c : Dev nD) (t : Fin cfg2.N) (p : Fin 5000) (k : Fin 128) :
    (iblk2 (F := Ideal) V c 0 t : S5000x128.Idx → EReal) (ix2 p k) = (V c main_v46 : S50000x128.Idx → EReal) (ix2 (row2 t p) k) := by
  obtain ⟨e0, e1, -⟩ := idx2 t
  unfold iblk2
  show V c main_v46 _ = V c main_v46 _
  congr 1
  funext a; apply Fin.ext
  match a with
  | ⟨0, _⟩ => show win2_0.index t (0 : Fin 2) * 5000 + 1 * p.val = 5000 * t.val + p.val; rw [e0]; omega
  | ⟨1, _⟩ => show win2_0.index t (1 : Fin 2) * 128 + 1 * k.val = k.val; rw [e1]; omega

/-- Window 1's block at point t is rows 5000 t … 5000 t + 4999 of its array. -/
theorem iblk2_1_apply (c : Dev nD) (t : Fin cfg2.N) (p : Fin 5000) (k : Fin 128) :
    (iblk2 (F := Ideal) V c 1 t : S5000x128.Idx → EReal) (ix2 p k) = (V c main_arg3 : S50000x128.Idx → EReal) (ix2 (row2 t p) k) := by
  obtain ⟨-, -, e0, e1, -⟩ := idx2 t
  unfold iblk2
  show V c main_arg3 _ = V c main_arg3 _
  congr 1
  funext a; apply Fin.ext
  match a with
  | ⟨0, _⟩ => show win2_1.index t (0 : Fin 2) * 5000 + 1 * p.val = 5000 * t.val + p.val; rw [e0]; omega
  | ⟨1, _⟩ => show win2_1.index t (1 : Fin 2) * 128 + 1 * k.val = k.val; rw [e1]; omega

/-- Window 2 is resident: its block index is 0 on both axes at every point, so its block is the whole array. -/
theorem iblk2_2_eq (c : Dev nD) (t : Fin cfg2.N) : (iblk2 (F := Ideal) V c 2 t : S128x128.Idx → EReal) = V c main_v6 := by
  obtain ⟨-, -, -, -, e0, e1, -⟩ := idx2 t
  funext y
  unfold iblk2
  show V c main_v6 _ = V c main_v6 y
  congr 1
  funext a; apply Fin.ext
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

/-- Window 3 is resident: its block index is 0 on both axes at every point, so its block is the whole array. -/
theorem iblk2_3_eq (c : Dev nD) (t : Fin cfg2.N) : (iblk2 (F := Ideal) V c 3 t : S1x128.Idx → EReal) = V c main_v47 := by
  obtain ⟨-, -, -, -, -, -, e0, e1, -⟩ := idx2 t
  funext y
  unfold iblk2
  show V c main_v47 _ = V c main_v47 y
  congr 1
  funext a; apply Fin.ext
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

/-! ## What each point writes back, and the blocks' cover -/

/-- Entry (p, q) of output block t sits at row 5000 t + p, column q of the output array. -/
theorem emb2 (t : Fin cfg2.N) (p : Fin 5000) (q : Fin 128) :
    ((cfg2.win 4).blk t).view.emb (ix2 p q) = (ix2 (row2 t p) q : S50000x128.Idx) := by
  obtain ⟨-, -, -, -, -, -, -, -, e0, e1⟩ := idx2 t
  funext a; apply Fin.ext
  match a with
  | ⟨0, _⟩ => show win2_4.index t (0 : Fin 2) * 5000 + 1 * p.val = 5000 * t.val + p.val; rw [e0]; omega
  | ⟨1, _⟩ => show win2_4.index t (1 : Fin 2) * 128 + 1 * q.val = q.val; rw [e1]; omega

/-- What point t writes back to output 4 is block t of the dense layer of the mixture of the whole input arrays. -/
theorem flushed2_eq (c : Dev nD) (t : Fin cfg2.N) :
    (dat2 (F := Ideal) V c).flushed 4 t
      = ((cfg2.win 4).blk t).view.read (Elt Ideal) (dense2 (V c main_arg3) (V c main_v46) (V c main_v6) (V c main_v47)) := by
  show (cfg2.win 4).cut (grid2.coords t) ((dat2 V c).after 4 t) = _
  rw [after2_4]
  unfold out2_4
  rw [View.canon_unit_zero hz2]
  simp only [View.ld_unit_zero (S := S5000x128) hz2, View.ld_unit_zero (S := S128x128) hz2, View.ld_unit_zero (S := S1x128) hz2]
  rw [iblk2_2_eq, iblk2_3_eq]
  funext j
  obtain ⟨p, q, rfl⟩ : ∃ (p : Fin 5000) (q : Fin 128), j = (ix2 p q : S5000x128.Idx) := ⟨j 0, j 1, eq_ix2 (n0 := 5000) (n1 := 128) j⟩
  show k2_pay1 (iblk2 V c 1 t) (iblk2 V c 0 t) (V c main_v6) (V c main_v47) (ix2 p q)
    = (dense2 (V c main_arg3) (V c main_v46) (V c main_v6) (V c main_v47)) (((cfg2.win 4).blk t).view.emb (ix2 p q))
  rw [emb2 t p q]
  refine (pay2_apply _ _ _ _ p q).trans ?_
  refine Eq.trans ?_ (dense2_apply _ _ _ _ _ _).symm
  exact add_left_eq2 (Finset.sum_congr rfl fun k _ => mul_left_eq2 (add_eq2 (mul_right_eq2 (iblk2_1_apply V c t p k)) (mul_right_eq2 (iblk2_0_apply V c t p k))))

/-- An index of the output array is in block t iff each coordinate is in the block's range on its axis. -/
theorem mem_blk2 (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v48).slice (win2_4.rect t)).set ↔ _
  rw [View.set_slice_whole, Rect.mem_set_unit]
  exact Iff.rfl

/-- The 10 blocks tile the output array: row r lies in block r / 5000. -/
theorem tiles2 (i : S50000x128.Idx) : ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, -, -, e0, e1⟩ := idx2 t
  refine ⟨t, flush2_4 t, ?_⟩
  rw [mem_blk2]
  intro a
  match a with
  | ⟨0, _⟩ => show win2_4.index t (0 : Fin 2) * 5000 ≤ (i 0).val ∧ (i 0).val < win2_4.index t (0 : Fin 2) * 5000 + 5000; rw [e0, ht]; omega
  | ⟨1, _⟩ => show win2_4.index t (1 : Fin 2) * 128 ≤ (i 1).val ∧ (i 1).val < win2_4.index t (1 : Fin 2) * 128 + 128; rw [e1]; omega

/-- Output array 4 after the region: the dense layer of the mixture of the whole input arrays. -/
theorem array2 (c : Dev nD) :
    (dat2 (F := Ideal) V c).arrAt 4 cfg2.N = dense2 (V c main_arg3) (V c main_v46) (V c main_v6) (V c main_v47) :=
  (dat2 V c).arrAt_eq_of_cover 4 _ (fun t _ => flushed2_eq V c t) tiles2

theorem region2_out4 (c : Dev nD) (Xv X0 : S50000x128.Idx → EReal) (W : S128x128.Idx → EReal) (B : S1x128.Idx → EReal)
    (hXv : V c main_v46 = Xv) (hX0 : V c main_arg3 = X0) (hW : V c main_v6 = W) (hB : V c main_v47 = B) (p : Fin 50000) (q : Fin 128) :
    ((dat2 (F := Ideal) V c).arrAt 4 cfg2.N : S50000x128.Idx → EReal) (ix2 p q)
      = (∑ k : Fin 128, (Ideal.ofBits .f32 0x3F000000#32 * X0 (ix2 p k) + Ideal.ofBits .f32 0x3F000000#32 * Xv (ix2 p k)) * W (ix2 k q))
        + B (ix2 (0 : Fin 1) q) := by
  subst hXv hX0 hW hB
  exact (congrFun (array2 V c) (ix2 p q)).trans (dense2_apply _ _ _ _ p q)

end Cert.KernelIdeal.RegionArrays
end
-- ==== Proof.RegionArrays.lean ====
/-
  The output arrays of the three row-tiled regions, entry by entry, as functions of the regions' input arrays.

  Each region computes out = X · W + B (the second output of region 0 has no bias; region 2's X is the mixture
  h · X0 + h · Xv) block of rows by block of rows, and its output blocks tile the output array exactly. The four
  modules imported here read, for each output, the array after all grid points at an entry (p, q):
  region0_out4, region0_out5, region1_out3, region2_out4.
-/
import proofs.«107207_j49658411876804_2_alg».proof.Proof.RegionArrays0a
import proofs.«107207_j49658411876804_2_alg».proof.Proof.RegionArrays0b
import proofs.«107207_j49658411876804_2_alg».proof.Proof.RegionArrays1
import proofs.«107207_j49658411876804_2_alg».proof.Proof.RegionArrays2
-- ==== Proof.KernelValue.lean ====
/-
  The idealized kernel program's result is the reference's function of the arguments.

  Followed from the result buffer back to the launch memory: the third region's output array is, entry by entry, the
  last dense layer of the per-vertex sums and the fourth argument; the per-vertex sums are the host's scatter-add of the
  weighted messages built from the first region's second output (the node features times the first half of the second
  layer's weight) and the second region's output (the per-hyperedge sums times the second half); the per-hyperedge sums are
  the host's scatter-add of the weighted rows of the first region's first output, the first dense layer. Each region's
  array is read entry by entry from its blocks, each host stretch as the composite of its operations, and each step is
  matched with the reference's stage of the same name.
-/
import proofs.«107207_j49658411876804_2_alg».proof.Proof.HostChain
import proofs.«107207_j49658411876804_2_alg».proof.Proof.Layouts
import proofs.«107207_j49658411876804_2_alg».proof.Proof.Bridge
import proofs.«107207_j49658411876804_2_alg».proof.Proof.RegionArrays

set_option maxRecDepth 16384

noncomputable section

namespace Cert.KernelIdeal.ResultValue

open Cert.KernelIdeal Cert.KernelIdeal.Gen Cert.KernelIdeal.HostChain Cert.KernelIdeal.RegionArrays
open Idealize.ShloMosaic Idealize.ShloMosaic.TcCoe Idealize.ShloMosaic.ValueIdx Idealize.SL.Sem
open Cert.ReferenceIdeal.Read Cert.Bridge

variable (m : (ℓ : Loc nD τ sig) → Buf (Elt Ideal) ℓ) (ρ : Dev nD → PrngReg)

/-- The first region's first output is the reference's first layer. -/
theorem firstLayer (c : Dev nD) :
    W2 m ρ c (Proc.devRef .tc main_v8_0) = val_main_v5 (F := Ideal) (m ((c : Thread nD τ).loc main_arg0)) (m ((c : Thread nD τ).loc main_arg5)) (m ((c : Thread nD τ).loc main_arg6)) :=
  (W2_out4 m ρ c).trans (firstLayer_eq _ _ _ _ fun p q =>
    region0_out4 (V1 m ρ) c _ _ _ (W1_arg0 m ρ c) (W1_v1 m ρ c) (W1_v7 m ρ c) p q)

/-- The per-hyperedge sums the second region is given are the reference's. -/
theorem edgeSums_ref (c : Dev nD) :
    W3 m ρ c (Proc.devRef .tc main_v20)
      = val_main_v17 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  rw [W3_v20, firstLayer, W2_arg1, W2_arg2, W2_v0]
  exact edgeSums_eq _ _ _ _ _ _

/-- The per-vertex sums the third region is given are the reference's. -/
theorem vertexSums_ref (c : Dev nD) :
    W5 m ρ c (Proc.devRef .tc main_v46)
      = val_main_v42 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) := by
  rw [W5_v46, W4_out5, W4_out3, W4_arg1, W4_arg2, W4_arg8, W4_v0]
  refine vertexSums_eq _ _ _ _ _ _ _ _ _ _ (fun p q => ?_) (fun p q => ?_)
  · exact region0_out5 (V1 m ρ) c _ _ (W1_arg0 m ρ c) (W1_v3 m ρ c) p q
  · exact region1_out3 (V3 m ρ) c _ _ _ (edgeSums_ref m ρ c) (W3_v5 m ρ c) (W3_v22 m ρ c) p q

/-- The kernel program's result buffer ends at the reference's function of the arguments. -/
theorem result_eq (c : Dev nD) :
    W6 m ρ c (Proc.devRef .tc main_v48)
      = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W6_out4 m ρ c).trans (lastLayer_eq _ _ _ _ _ _ _ _ _ _ _ _ _ (vertexSums_ref m ρ c) fun p q =>
    region2_out4 (V5 m ρ) c _ _ _ _ rfl ((W5_keep_arg3 m ρ c).trans (W4_arg3 m ρ c)) ((W5_keep_v6 m ρ c).trans (W4_v6 m ρ c))
      ((W5_v47 m ρ c).trans (by rw [W4_arg10])) p q)

end Cert.KernelIdeal.ResultValue

end
-- ==== Proof.lean ====
/-
  A hypergraph convolution in three dense layers, against its jnp reference, over the extended reals.

  Both programs compute, from node features X (50000x128), incidence pairs (vertex v(s), hyperedge e(s), weight α(s);
  600000 of them) and three weight matrices with biases: the first layer Xw1 = X·W1ᵀ + b1; the per-hyperedge sums
  Xe(e, ·) = ∑ over pairs s with e(s) = e of α(s)·Xw1(v(s), ·); per pair the message ([X(v(s), ·), Xe(e(s), ·)]·W2ᵀ + b2)·α(s);
  the per-vertex sums Xv of the messages; and the result (½·Xv + ½·X0)·Wᵀ + b. The reference does this with whole-array
  operations. The kernel program runs the three products with the tables as row-tiled regions on the TensorCore (blocks of
  5000, 2000 and 5000 rows that tile the arrays exactly; the weights resident, already transposed; inputs rounded to bf16,
  which is the identity on the extended reals), forms the second product BEFORE the gathers — X times the first half of W2
  and Xe times the second half, a bias of zeros added —, and gathers rows of the products instead of multiplying gathered
  rows. The two agree because a product with the 256 columns of W2 is the sum of the products with its two halves, and a
  gather picks its row by the row number alone; only that + on the extended reals is commutative and associative is used,
  so the finiteness of the inputs is never needed. The idealization rewrote nothing, so it is preserved trivially; the
  word-level and idealized kernel programs' frames are the generated ones, and the reference's frame is its generated run.
-/
import proofs.«107207_j49658411876804_2_alg».proof.Defs
import proofs.«107207_j49658411876804_2_alg».proof.Proof.Gen.Kernel
import proofs.«107207_j49658411876804_2_alg».proof.Proof.Gen.Kernel.Frame
import proofs.«107207_j49658411876804_2_alg».proof.Proof.Gen.KernelIdeal
import proofs.«107207_j49658411876804_2_alg».proof.Proof.Gen.KernelIdeal.Frame
import proofs.«107207_j49658411876804_2_alg».proof.Proof.Gen.ReferenceIdeal
import proofs.«107207_j49658411876804_2_alg».proof.Proof.Gen.Pre_finite_inputs
import proofs.«107207_j49658411876804_2_alg».proof.Proof.Gen.ReferenceIdeal.Run
import proofs.«107207_j49658411876804_2_alg».proof.Proof.Gen.ReferenceIdeal.Read
import proofs.«107207_j49658411876804_2_alg».proof.Proof.KernelRun
import proofs.«107207_j49658411876804_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and leaves its arguments. -/
theorem frame_kernel : Cert.frame_Kernel := fun m ρ _ => Cert.Kernel.Gen.frame m ρ

/-- The idealized kernel program runs and leaves its arguments. -/
theorem frame_kernelIdeal : Cert.frame_KernelIdeal := fun m ρ _ => Cert.KernelIdeal.Gen.frame m ρ

/-- The reference runs and leaves its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten for the idealization. -/
theorem preserves : Cert.preserves_Kernel_KernelIdeal := trivial

/-- From memories agreeing on the arguments both programs end with the reference's function of the arguments in their
    result buffers. -/
theorem algebraic : Cert.algebraic_KernelIdeal_ReferenceIdeal := by
  intro m ρ m' ρ' _ hagree
  refine ⟨fun c => Cert.ReferenceIdeal.Read.val_main_v52 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.ResultValue.result_eq m ρ c), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v52_eq (F := Ideal) _ _ _ _ _ _ _ _ _ _ _).trans ?_
    obtain ⟨h0, h1, h2, h3, h4, h5, h6, h7, h8, h9, h10⟩ := hagree c
    rw [h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
